-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x16384x64 : Shape := ⟨3, ![32, 16384, 64]⟩
abbrev S64x32 : Shape := ⟨2, ![64, 32]⟩
abbrev S_ : Shape := ⟨0, ![]⟩

class Facts : Prop where
  bcast_S_S32x16384x64 : S_.BroadcastsInDim S32x16384x64 (![] : Fin 0 → Fin S32x16384x64.rank)
  reducesTo_S32x16384x64_S_d0_1_2 : S32x16384x64.ReducesTo [0, 1, 2] S_
  h_S_ : 0 < S_.numel
  bcast_S_S64x32 : S_.BroadcastsInDim S64x32 (![] : Fin 0 → Fin S64x32.rank)
  reducesTo_S64x32_S_d0_1 : S64x32.ReducesTo [0, 1] S_

variable [Facts]

def fn {F : FTy → Type} [FloatOps F] (main_arg0 : FVec F S32x16384x64 .f32) (main_arg1 : FVec F S64x32 .f32) : IVec S_ 1 :=
  let main_v0 : FVec F S32x16384x64 .f32 := Host.absf main_arg0
  let main_cst : FVec F S_ .f32 := constant S_ .f32 0x7F800000#32
  let main_v1 : FVec F S32x16384x64 .f32 := broadcastInDim S32x16384x64 ![] bcast_S_S32x16384x64 main_cst
  let main_v2 : IVec S32x16384x64 1 := cmpf .olt main_v0 main_v1
  let main_c : IVec S_ 1 := constantI S_ 1 1#1
  let main_v3 : IVec S_ 1 := (fun x v => Host.reduce IntOp.andi x v reducesTo_S32x16384x64_S_d0_1_2 h_S_) main_v2 main_c
  let main_v4 : FVec F S64x32 .f32 := Host.absf main_arg1
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  main_v8
-- ==== Kernel.lean ====
abbrev S32x16384x64 : Shape := ⟨3, ![32, 16384, 64]⟩
abbrev S64x32 : Shape := ⟨2, ![64, 32]⟩
abbrev S32x32x64 : Shape := ⟨3, ![32, 32, 64]⟩
abbrev S1x4096x64 : Shape := ⟨3, ![1, 4096, 64]⟩
abbrev S1x32x64 : Shape := ⟨3, ![1, 32, 64]⟩
abbrev S1x32 : Shape := ⟨2, ![1, 32]⟩
abbrev S4096x64 : Shape := ⟨2, ![4096, 64]⟩
abbrev S4096 : Shape := ⟨1, ![4096]⟩
abbrev S4096x1 : Shape := ⟨2, ![4096, 1]⟩
abbrev S4096x32 : Shape := ⟨2, ![4096, 32]⟩
abbrev S32 : Shape := ⟨1, ![32]⟩
abbrev S32x64 : Shape := ⟨2, ![32, 64]⟩
abbrev S32x1 : Shape := ⟨2, ![32, 1]⟩
abbrev S1 : Shape := ⟨1, ![1]⟩
abbrev S1x1x1 : Shape := ⟨3, ![1, 1, 1]⟩
abbrev S1x1 : Shape := ⟨2, ![1, 1]⟩
abbrev S32x2048 : Shape := ⟨2, ![32, 2048]⟩

abbrev nBuf : Space → Nat
  | .hbm => 4
  | .vmem => 7
  | .smem => 0
  | _ => 0

abbrev bufTy : (tb : Table) → Fin (tcTables nBuf tb) → BufTy
  | .hbm, ⟨0, _⟩ => ⟨S32x16384x64, .f32⟩
  | .hbm, ⟨1, _⟩ => ⟨S64x32, .f32⟩
  | .hbm, ⟨2, _⟩ => ⟨S32x32x64, .f32⟩
  | .hbm, ⟨3, _⟩ => ⟨S32x2048, .f32⟩
  | .local _ .vmem, ⟨0, _⟩ => ⟨S1x4096x64, .f32⟩
  | .local _ .vmem, ⟨1, _⟩ => ⟨S1x4096x64, .f32⟩
  | .local _ .vmem, ⟨2, _⟩ => ⟨S64x32, .f32⟩
  | .local _ .vmem, ⟨3, _⟩ => ⟨S1x32x64, .f32⟩
  | .local _ .vmem, ⟨4, _⟩ => ⟨S1x32x64, .f32⟩
  | .local _ .vmem, ⟨5, _⟩ => ⟨S64x32, .f32⟩
  | .local _ .vmem, ⟨6, _⟩ => ⟨S1x32, .f32⟩
  | _, _ => ⟨S32x16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v53 : BitVec 1 := Scalar.cmpi .eq arg1 c3_i32
  let v54 : BitVec 32 := Scalar.extui v53
  let c0_i32_24 : BitVec 32 := 0#32
  let v55 : BitVec 1 := Scalar.cmpi .ne v54 c0_i32_24
  v55

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x32x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  reduces_S4096x64_S4096 : S4096x64.Reduces [1] S4096
  shapeCasts_S4096_S4096x1 : S4096.ShapeCasts S4096x1
  broadcasts_S4096x1_S4096x64 : S4096x1.Broadcasts S4096x64
  reduces_S64x32_S32 : S64x32.Reduces [0] S32
  shapeCasts_S32_S1x32 : S32.ShapeCasts S1x32
  broadcasts_S4096x1_S4096x32 : S4096x1.Broadcasts S4096x32
  broadcasts_S1x32_S4096x32 : S1x32.Broadcasts S4096x32
  reduces_S4096x32_S4096 : S4096x32.Reduces [1] S4096
  reduces_S4096x32_S32 : S4096x32.Reduces [0] S32
  broadcasts_S1x32_S64x32 : S1x32.Broadcasts S64x32
  transposes_S64x32_p1_0_S32x64 : S64x32.Transposes [1, 0] S32x64
  reduces_S32x64_S32 : S32x64.Reduces [1] S32
  shapeCasts_S32_S32x1 : S32.ShapeCasts S32x1
  broadcasts_S32x1_S32x64 : S32x1.Broadcasts S32x64
  shapeCasts_S32x64_S1x32x64 : S32x64.ShapeCasts S1x32x64
  reduces_S1x32x64_S1 : S1x32x64.Reduces [1, 2] S1
  shapeCasts_S1_S1x1x1 : S1.ShapeCasts S1x1x1
  inpos_S1x1x1_p0_0_0 : ∀ a, (![0, 0, 0] : Fin 3 → Nat) a < S1x1x1.size a
  broadcasts_S1x1_S32x64 : S1x1.Broadcasts S32x64
  inb_S1x32x64_S1x32x64_0_0_0 : ∀ a, (![0, 0, 0] : Fin 3 → Nat) a + S1x32x64.size a ≤ S1x32x64.size a
  h_S1x32x64 : 0 < S1x32x64.numel
  shapeCasts_S1x32x64_S32x64 : S1x32x64.ShapeCasts S32x64
  shapeCasts_S32x32x64_S32x2048 : S32x32x64.ShapeCasts S32x2048
  dot_S4096x64_S64x32_S4096x32_1_0_0_1_n_n_wf : DotDims.WF S4096x64 S64x32 S4096x32 [1] [0] [0] [1] [] []
  dot_S4096x64_S4096x32_S64x32_0_0_1_1_n_n_wf : DotDims.WF S4096x64 S4096x32 S64x32 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x64.size a ≤ S32x16384x64.size a
  hwx0_0 : ∀ i : grid0.Coords, EltTy.bits .f32 = 32 ∨ (Rect.block (s := S32x16384x64) S1x4096x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x32.size a ≤ S64x32.size a
  hwx0_1 : ∀ i : grid0.Coords, EltTy.bits .f32 = 32 ∨ (Rect.block (s := S64x32) S64x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x64.size a ≤ S32x32x64.size a
  hwx0_2 : ∀ i : grid0.Coords, EltTy.bits .f32 = 32 ∨ (Rect.block (s := S32x32x64) S1x32x64.size (cc0_transform_2 i) (hinb0_2 i)).WholeWords (EltTy.packing .f32)

variable [Facts₀]

def dot_S4096x64_S64x32_S4096x32_1_0_0_1_n_n : DotDims S4096x64 S64x32 S4096x32 where
  lhsContracting := [1]
  rhsContracting := [0]
  lhsNonContracting := [0]
  rhsNonContracting := [1]
  lhsBatch := []
  rhsBatch := []
  wf := dot_S4096x64_S64x32_S4096x32_1_0_0_1_n_n_wf
def dot_S4096x64_S4096x32_S64x32_0_0_1_1_n_n : DotDims S4096x64 S4096x32 S64x32 where
  lhsContracting := [0]
  rhsContracting := [0]
  lhsNonContracting := [1]
  rhsNonContracting := [1]
  lhsBatch := []
  rhsBatch := []
  wf := dot_S4096x64_S4096x32_S64x32_0_0_1_1_n_n_wf

abbrev win0_0 : Pipeline.Window sig grid0 :=
  Pipeline.Window.ofSpec (Memref.whole main_arg0) S1x4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S32x16384x64 : Shape := ⟨3, ![32, 16384, 64]⟩
abbrev S64x32 : Shape := ⟨2, ![64, 32]⟩
abbrev S_ : Shape := ⟨0, ![]⟩
abbrev S32x16384 : Shape := ⟨2, ![32, 16384]⟩
abbrev S32x16384x1 : Shape := ⟨3, ![32, 16384, 1]⟩
abbrev S32x16384x32 : Shape := ⟨3, ![32, 16384, 32]⟩
abbrev S32 : Shape := ⟨1, ![32]⟩
abbrev S1x1x32 : Shape := ⟨3, ![1, 1, 32]⟩
abbrev S32x64x32 : Shape := ⟨3, ![32, 64, 32]⟩
abbrev S32x32 : Shape := ⟨2, ![32, 32]⟩
abbrev S1x64x32 : Shape := ⟨3, ![1, 64, 32]⟩
abbrev S32x1x32 : Shape := ⟨3, ![32, 1, 32]⟩
abbrev S32x32x64 : Shape := ⟨3, ![32, 32, 64]⟩
abbrev S32x32x1 : Shape := ⟨3, ![32, 32, 1]⟩
abbrev S32x2048 : Shape := ⟨2, ![32, 2048]⟩
abbrev S32x1 : Shape := ⟨2, ![32, 1]⟩

abbrev nBuf : Space → Nat
  | .hbm => 77
  | .vmem => 0
  | .smem => 0
  | _ => 0

abbrev bufTy : (tb : Table) → Fin (tcTables nBuf tb) → BufTy
  | .hbm, ⟨0, _⟩ => ⟨S32x16384x64, .f32⟩
  | .hbm, ⟨1, _⟩ => ⟨S64x32, .f32⟩
  | .hbm, ⟨2, _⟩ => ⟨S32x16384x64, .f32⟩
  | .hbm, ⟨3, _⟩ => ⟨S_, .f32⟩
  | .hbm, ⟨4, _⟩ => ⟨S32x16384, .f32⟩
  | .hbm, ⟨5, _⟩ => ⟨S32x16384x1, .f32⟩
  | .hbm, ⟨6, _⟩ => ⟨S32x16384x1, .f32⟩
  | .hbm, ⟨7, _⟩ => ⟨S_, .f32⟩
  | .hbm, ⟨8, _⟩ => ⟨S32x16384x1, .f32⟩
  | .hbm, ⟨9, _⟩ => ⟨S32x16384x1, .f32⟩
  | .hbm, ⟨10, _⟩ => ⟨S32x16384x64, .f32⟩
  | .hbm, ⟨11, _⟩ => ⟨S32x16384x64, .f32⟩
  | .hbm, ⟨12, _⟩ => ⟨S32x16384x32, .f32⟩
  | .hbm, ⟨13, _⟩ => ⟨S64x32, .f32⟩
  | .hbm, ⟨14, _⟩ => ⟨S_, .f32⟩
  | .hbm, ⟨15, _⟩ => ⟨S32, .f32⟩
  | .hbm, ⟨16, _⟩ => ⟨S32x16384x64, .f32⟩
  | .hbm, ⟨17, _⟩ => ⟨S_, .f32⟩
  | .hbm, ⟨18, _⟩ => ⟨S32x16384, .f32⟩
  | .hbm, ⟨19, _⟩ => ⟨S32x16384x1, .f32⟩
  | .hbm, ⟨20, _⟩ => ⟨S1x1x32, .f32⟩
  | .hbm, ⟨21, _⟩ => ⟨S32x16384x32, .f32⟩
  | .hbm, ⟨22, _⟩ => ⟨S32x16384x32, .f32⟩
  | .hbm, ⟨23, _⟩ => ⟨S32x16384x32, .f32⟩
  | .hbm, ⟨24, _⟩ => ⟨S_, .f32⟩
  | .hbm, ⟨25, _⟩ => ⟨S32x16384x32, .f32⟩
  | .hbm, ⟨26, _⟩ => ⟨S32x16384x32, .f32⟩
  | .hbm, ⟨27, _⟩ => ⟨S32x16384x32, .f32⟩
  | .hbm, ⟨28, _⟩ => ⟨S32x16384x32, .f32⟩
  | .hbm, ⟨29, _⟩ => ⟨S_, .f32⟩
  | .hbm, ⟨30, _⟩ => ⟨S32x16384x32, .f32⟩
  | .hbm, ⟨31, _⟩ => ⟨S32x16384x32, .f32⟩
  | .hbm, ⟨32, _⟩ => ⟨S_, .f32⟩
  | .hbm, ⟨33, _⟩ => ⟨S32x16384, .f32⟩
  | .hbm, ⟨34, _⟩ => ⟨S_, .f32⟩
  | .hbm, ⟨35, _⟩ => ⟨S32x16384, .f32⟩
  | .hbm, ⟨36, _⟩ => ⟨S32x16384, .f32⟩
  | .hbm, ⟨37, _⟩ => ⟨S32x16384x1, .f32⟩
  | .hbm, ⟨38, _⟩ => ⟨S32x16384x32, .f32⟩
  | .hbm, ⟨39, _⟩ => ⟨S32x16384x32, .f32⟩
  | .hbm, ⟨40, _⟩ => ⟨S32x16384x32, .f32⟩
  | .hbm, ⟨41, _⟩ => ⟨S_, .f32⟩
  | .hbm, ⟨42, _⟩ => ⟨S32x16384, .f32⟩
  | .hbm, ⟨43, _⟩ => ⟨S32x16384x1, .f32⟩
  | .hbm, ⟨44, _⟩ => ⟨S32x16384x32, .f32⟩
  | .hbm, ⟨45, _⟩ => ⟨S32x16384x32, .f32⟩
  | .hbm, ⟨46, _⟩ => ⟨S32x64x32, .f32⟩
  | .hbm, ⟨47, _⟩ => ⟨S_, .f32⟩
  | .hbm, ⟨48, _⟩ => ⟨S32x32, .f32⟩
  | .hbm, ⟨49, _⟩ => ⟨S1x64x32, .f32⟩
  | .hbm, ⟨50, _⟩ => ⟨S32x1x32, .f32⟩
  | .hbm, ⟨51, _⟩ => ⟨S32x64x32, .f32⟩
  | .hbm, ⟨52, _⟩ => ⟨S32x64x32, .f32⟩
  | .hbm, ⟨53, _⟩ => ⟨S32x64x32, .f32⟩
  | .hbm, ⟨54, _⟩ => ⟨S32x64x32, .f32⟩
  | .hbm, ⟨55, _⟩ => ⟨S32x32x64, .f32⟩
  | .hbm, ⟨56, _⟩ => ⟨S32x32x64, .f32⟩
  | .hbm, ⟨57, _⟩ => ⟨S_, .f32⟩
  | .hbm, ⟨58, _⟩ => ⟨S32x32, .f32⟩
  | .hbm, ⟨59, _⟩ => ⟨S32x32x1, .f32⟩
  | .hbm, ⟨60, _⟩ => ⟨S32x32x1, .f32⟩
  | .hbm, ⟨61, _⟩ => ⟨S_, .f32⟩
  | .hbm, ⟨62, _⟩ => ⟨S32x32x1, .f32⟩
  | .hbm, ⟨63, _⟩ => ⟨S32x32x1, .f32⟩
  | .hbm, ⟨64, _⟩ => ⟨S32x32x64, .f32⟩
  | .hbm, ⟨65, _⟩ => ⟨S32x32x64, .f32⟩
  | .hbm, ⟨66, _⟩ => ⟨S32x2048, .f32⟩
  | .hbm, ⟨67, _⟩ => ⟨S32x2048, .f32⟩
  | .hbm, ⟨68, _⟩ => ⟨S_, .f32⟩
  | .hbm, ⟨69, _⟩ => ⟨S32, .f32⟩
  | .hbm, ⟨70, _⟩ => ⟨S32x1, .f32⟩
  | .hbm, ⟨71, _⟩ => ⟨S32x1, .f32⟩
  | .hbm, ⟨72, _⟩ => ⟨S_, .f32⟩
  | .hbm, ⟨73, _⟩ => ⟨S32x1, .f32⟩
  | .hbm, ⟨74, _⟩ => ⟨S32x1, .f32⟩
  | .hbm, ⟨75, _⟩ => ⟨S32x2048, .f32⟩
  | .hbm, ⟨76, _⟩ => ⟨S32x2048, .f32⟩
  | _, _ => ⟨S32x16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_cst_6 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_7 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_8 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_9 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_10 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_11 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_12 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩

abbrev nD : Nat := 1
abbrev τ : Topo := Topo.v7x

variable {F : FTy → Type} [FloatOps F]

class Facts₀ : Prop where
  reducesTo_S32x16384x64_S32x16384_d2 : S32x16384x64.ReducesTo [2] S32x16384
  h_S_ : 0 < S_.numel
  bcast_S32x16384_S32x16384x1_0_1 : S32x16384.BroadcastsInDim S32x16384x1 (![0, 1] : Fin 2 → Fin S32x16384x1.rank)
  bcast_S_S32x16384x1 : S_.BroadcastsInDim S32x16384x1 (![] : Fin 0 → Fin S32x16384x1.rank)
  bcast_S32x16384x1_S32x16384x64_0_1_2 : S32x16384x1.BroadcastsInDim S32x16384x64 (![0, 1, 2] : Fin 3 → Fin S32x16384x64.rank)
  reducesTo_S64x32_S32_d0 : S64x32.ReducesTo [0] S32
  bcast_S32_S1x1x32_2 : S32.BroadcastsInDim S1x1x32 (![2] : Fin 1 → Fin S1x1x32.rank)
  bcast_S32x16384x1_S32x16384x32_0_1_2 : S32x16384x1.BroadcastsInDim S32x16384x32 (![0, 1, 2] : Fin 3 → Fin S32x16384x32.rank)
  bcast_S1x1x32_S32x16384x32_0_1_2 : S1x1x32.BroadcastsInDim S32x16384x32 (![0, 1, 2] : Fin 3 → Fin S32x16384x32.rank)
  bcast_S_S32x16384x32 : S_.BroadcastsInDim S32x16384x32 (![] : Fin 0 → Fin S32x16384x32.rank)
  reducesTo_S32x16384x32_S32x16384_d2 : S32x16384x32.ReducesTo [2] S32x16384
  bcast_S_S32x16384 : S_.BroadcastsInDim S32x16384 (![] : Fin 0 → Fin S32x16384.rank)
  reducesTo_S32x16384x32_S32x32_d1 : S32x16384x32.ReducesTo [1] S32x32
  bcast_S64x32_S1x64x32_1_2 : S64x32.BroadcastsInDim S1x64x32 (![1, 2] : Fin 2 → Fin S1x64x32.rank)
  bcast_S32x32_S32x1x32_0_2 : S32x32.BroadcastsInDim S32x1x32 (![0, 2] : Fin 2 → Fin S32x1x32.rank)
  bcast_S1x64x32_S32x64x32_0_1_2 : S1x64x32.BroadcastsInDim S32x64x32 (![0, 1, 2] : Fin 3 → Fin S32x64x32.rank)
  bcast_S32x1x32_S32x64x32_0_1_2 : S32x1x32.BroadcastsInDim S32x64x32 (![0, 1, 2] : Fin 3 → Fin S32x64x32.rank)
  transposes_S32x64x32_S32x32x64_0_2_1 : S32x64x32.Transposes [0, 2, 1] S32x32x64
  reducesTo_S32x32x64_S32x32_d2 : S32x32x64.ReducesTo [2] S32x32
  bcast_S32x32_S32x32x1_0_1 : S32x32.BroadcastsInDim S32x32x1 (![0, 1] : Fin 2 → Fin S32x32x1.rank)
  bcast_S_S32x32x1 : S_.BroadcastsInDim S32x32x1 (![] : Fin 0 → Fin S32x32x1.rank)
  bcast_S32x32x1_S32x32x64_0_1_2 : S32x32x1.BroadcastsInDim S32x32x64 (![0, 1, 2] : Fin 3 → Fin S32x32x64.rank)
  shapeCasts_S32x32x64_S32x2048 : S32x32x64.ShapeCasts S32x2048
  reducesTo_S32x2048_S32_d1 : S32x2048.ReducesTo [1] S32
  bcast_S32_S32x1_0 : S32.BroadcastsInDim S32x1 (![0] : Fin 1 → Fin S32x1.rank)
  bcast_S_S32x1 : S_.BroadcastsInDim S32x1 (![] : Fin 0 → Fin S32x1.rank)
  bcast_S32x1_S32x2048_0_1 : S32x1.BroadcastsInDim S32x2048 (![0, 1] : Fin 2 → Fin S32x2048.rank)
  dot_S32x16384x64_S64x32_S32x16384x32_2_0_01_1_n_n_wf : DotDims.WF S32x16384x64 S64x32 S32x16384x32 [2] [0] [0, 1] [1] [] []
  dot_S32x16384x64_S32x16384x32_S32x64x32_1_1_2_2_0_0_wf : DotDims.WF S32x16384x64 S32x16384x32 S32x64x32 [1] [1] [2] [2] [0] [0]

variable [Facts₀]

def dot_S32x16384x64_S64x32_S32x16384x32_2_0_01_1_n_n : DotDims S32x16384x64 S64x32 S32x16384x32 where
  lhsContracting := [2]
  rhsContracting := [0]
  lhsNonContracting := [0, 1]
  rhsNonContracting := [1]
  lhsBatch := []
  rhsBatch := []
  wf := dot_S32x16384x64_S64x32_S32x16384x32_2_0_01_1_n_n_wf
def dot_S32x16384x64_S32x16384x32_S32x64x32_1_1_2_2_0_0 : DotDims S32x16384x64 S32x16384x32 S32x64x32 where
  lhsContracting := [1]
  rhsContracting := [1]
  lhsNonContracting := [2]
  rhsNonContracting := [2]
  lhsBatch := [0]
  rhsBatch := [0]
  wf := dot_S32x16384x64_S32x16384x32_S32x64x32_1_1_2_2_0_0_wf

class Facts : Prop extends Facts₀ where

variable [Facts]
-- ==== Proof.KernelPieces.lean ====
/-
  What one run of the body leaves behind, case by case, as values.

  The body has three control cases: the first tile of a batch entry (both scratch accumulators are reset to zero
  before the tile is added), a middle tile (the tile is added to what the previous point left), and the last tile
  (as a middle tile, and then the output block is computed from the centroids and the two accumulators just
  written). Each buffer's final contents are one whole-buffer store, so they are that store's value: the tile's
  update of the aggregate, `acc + uᵀ·a`; its update of the centroid masses, `acc + Σₙ a`; and, in the last case, the
  normalised residual of the updated accumulators. Stated for any float instance.
-/
import proofs.«138686_j45775761440891_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The aggregate after a tile `x` is added to `acc`: `acc + uᵀ·a` for the tile's unit rows `u` and assignments `a`. -/
abbrev addTileS (x : Vec F S1x4096x64 .f32) (cent : Vec F S64x32 .f32) (acc : Vec F S64x32 .f32) : Vec F S64x32 .f32 :=
  k0_pay1 (k0_pay6 x) (k0_pay7 x cent) acc

/-- The centroid masses after a tile is added: `acc + Σₙ a`. -/
abbrev addTileW (x : Vec F S1x4096x64 .f32) (cent : Vec F S64x32 .f32) (acc : Vec F S1x32 .f32) : Vec F S1x32 .f32 :=
  k0_pay2 (k0_pay7 x cent) acc

/-- A middle tile: the aggregate is the previous one with the tile added. -/
theorem sout_B_0 (c : Dev nD) (i : grid0.Coords) (a2 : Memref sig .tc .vmem S1x4096x64 .f32) (h2 : a2.IsWhole) (a3 : Memref sig .tc .vmem S64x32 .f32) (h3 : a3.IsWhole) (a4 : Memref sig .tc .vmem S1x32x64 .f32) (h4 : a4.IsWhole) (a5 : Memref sig .tc .vmem S64x32 .f32) (h5 : a5.IsWhole) (a6 : Memref sig .tc .vmem S1x32 .f32) (h6 : a6.IsWhole) (hc0 : ¬cond0_0 i) (hc1 : ¬cond0_1 i)
    (x0 : Vec F S1x4096x64 .f32) (x1 : Vec F S64x32 .f32) (xs0 : Vec F S64x32 .f32) (xs1 : Vec F S1x32 .f32) :
    sout0_B_0 c i a2 h2 a3 h3 a4 h4 a5 h5 a6 h6 hc0 hc1 x0 x1 xs0 xs1 = addTileS x0 x1 xs0 := by
  unfold sout0_B_0
  rw [View.read_writes_eq_canon _ _ _ (scover0_B_0 c i a2 h2 a3 h3 a4 h4 a5 h5 a6 h6 hc0 hc1 x0 x1 xs0 xs1)]
  unfold kernelRun0_B
  dsimp only
  sl_unfold_words
  rw [View.canon_unit_zero hz2]
  simp only [View.readAt_eq_ld, h2.read_unread, h3.read_unread, h5.read_unread, h6.read_unread,
    View.ld_unit_zero (S := S1x4096x64) hz3, View.ld_unit_zero (S := S64x32) hz2, View.ld_unit_zero (S := S1x32) hz2]

/-- A middle tile: the masses are the previous ones with the tile added. -/
theorem sout_B_1 (c : Dev nD) (i : grid0.Coords) (a2 : Memref sig .tc .vmem S1x4096x64 .f32) (h2 : a2.IsWhole) (a3 : Memref sig .tc .vmem S64x32 .f32) (h3 : a3.IsWhole) (a4 : Memref sig .tc .vmem S1x32x64 .f32) (h4 : a4.IsWhole) (a5 : Memref sig .tc .vmem S64x32 .f32) (h5 : a5.IsWhole) (a6 : Memref sig .tc .vmem S1x32 .f32) (h6 : a6.IsWhole) (hc0 : ¬cond0_0 i) (hc1 : ¬cond0_1 i)
    (x0 : Vec F S1x4096x64 .f32) (x1 : Vec F S64x32 .f32) (xs0 : Vec F S64x32 .f32) (xs1 : Vec F S1x32 .f32) :
    sout0_B_1 c i a2 h2 a3 h3 a4 h4 a5 h5 a6 h6 hc0 hc1 x0 x1 xs0 xs1 = addTileW x0 x1 xs1 := by
  unfold sout0_B_1
  rw [View.read_writes_eq_canon _ _ _ (scover0_B_1 c i a2 h2 a3 h3 a4 h4 a5 h5 a6 h6 hc0 hc1 x0 x1 xs0 xs1)]
  unfold kernelRun0_B
  dsimp only
  sl_unfold_words
  rw [View.canon_unit_zero hz2]
  simp only [View.readAt_eq_ld, h2.read_unread, h3.read_unread, h5.read_unread, h6.read_unread,
    View.ld_unit_zero (S := S1x4096x64) hz3, View.ld_unit_zero (S := S64x32) hz2, View.ld_unit_zero (S := S1x32) hz2]

/-- The last tile updates the aggregate as a middle tile does. -/
theorem sout_C_0 (c : Dev nD) (i : grid0.Coords) (a2 : Memref sig .tc .vmem S1x4096x64 .f32) (h2 : a2.IsWhole) (a3 : Memref sig .tc .vmem S64x32 .f32) (h3 : a3.IsWhole) (a4 : Memref sig .tc .vmem S1x32x64 .f32) (h4 : a4.IsWhole) (a5 : Memref sig .tc .vmem S64x32 .f32) (h5 : a5.IsWhole) (a6 : Memref sig .tc .vmem S1x32 .f32) (h6 : a6.IsWhole) (hc0 : ¬cond0_0 i) (hc1 : cond0_1 i)
    (x0 : Vec F S1x4096x64 .f32) (x1 : Vec F S64x32 .f32) (xs0 : Vec F S64x32 .f32) (xs1 : Vec F S1x32 .f32) :
    sout0_C_0 c i a2 h2 a3 h3 a4 h4 a5 h5 a6 h6 hc0 hc1 x0 x1 xs0 xs1 = addTileS x0 x1 xs0 := by
  unfold sout0_C_0
  rw [View.read_writes_eq_canon _ _ _ (scover0_C_0 c i a2 h2 a3 h3 a4 h4 a5 h5 a6 h6 hc0 hc1 x0 x1 xs0 xs1)]
  unfold kernelRun0_C
  dsimp only
  sl_unfold_words
  rw [View.canon_unit_zero hz2]
  simp only [View.readAt_eq_ld, h2.read_unread, h3.read_unread, h5.read_unread, h6.read_unread,
    View.ld_unit_zero (S := S1x4096x64) hz3, View.ld_unit_zero (S := S64x32) hz2, View.ld_unit_zero (S := S1x32) hz2]

/-- The last tile updates the masses as a middle tile does. -/
theorem sout_C_1 (c : Dev nD) (i : grid0.Coords) (a2 : Memref sig .tc .vmem S1x4096x64 .f32) (h2 : a2.IsWhole) (a3 : Memref sig .tc .vmem S64x32 .f32) (h3 : a3.IsWhole) (a4 : Memref sig .tc .vmem S1x32x64 .f32) (h4 : a4.IsWhole) (a5 : Memref sig .tc .vmem S64x32 .f32) (h5 : a5.IsWhole) (a6 : Memref sig .tc .vmem S1x32 .f32) (h6 : a6.IsWhole) (hc0 : ¬cond0_0 i) (hc1 : cond0_1 i)
    (x0 : Vec F S1x4096x64 .f32) (x1 : Vec F S64x32 .f32) (xs0 : Vec F S64x32 .f32) (xs1 : Vec F S1x32 .f32) :
    sout0_C_1 c i a2 h2 a3 h3 a4 h4 a5 h5 a6 h6 hc0 hc1 x0 x1 xs0 xs1 = addTileW x0 x1 xs1 := by
  unfold sout0_C_1
  rw [View.read_writes_eq_canon _ _ _ (scover0_C_1 c i a2 h2 a3 h3 a4 h4 a5 h5 a6 h6 hc0 hc1 x0 x1 xs0 xs1)]
  unfold kernelRun0_C
  dsimp only
  sl_unfold_words
  rw [View.canon_unit_zero hz2]
  simp only [View.readAt_eq_ld, h2.read_unread, h3.read_unread, h5.read_unread, h6.read_unread,
    View.ld_unit_zero (S := S1x4096x64) hz3, View.ld_unit_zero (S := S64x32) hz2, View.ld_unit_zero (S := S1x32) hz2]

/-- The last tile's output block: the normalised residual of the centroids against the two accumulators as the
    tile has just left them. -/
theorem out_C_2 (c : Dev nD) (i : grid0.Coords) (a2 : Memref sig .tc .vmem S1x4096x64 .f32) (h2 : a2.IsWhole) (a3 : Memref sig .tc .vmem S64x32 .f32) (h3 : a3.IsWhole) (a4 : Memref sig .tc .vmem S1x32x64 .f32) (h4 : a4.IsWhole) (a5 : Memref sig .tc .vmem S64x32 .f32) (h5 : a5.IsWhole) (a6 : Memref sig .tc .vmem S1x32 .f32) (h6 : a6.IsWhole) (hc0 : ¬cond0_0 i) (hc1 : cond0_1 i)
    (x0 : Vec F S1x4096x64 .f32) (x1 : Vec F S64x32 .f32) (xs0 : Vec F S64x32 .f32) (xs1 : Vec F S1x32 .f32) :
    out0_C_2 c i a2 h2 a3 h3 a4 h4 a5 h5 a6 h6 hc0 hc1 x0 x1 xs0 xs1 = k0_pay3 x1 (addTileW x0 x1 xs1) (addTileS x0 x1 xs0) := by
  unfold out0_C_2
  rw [View.read_writes_eq_canon _ _ _ (cover0_C_2 c i a2 h2 a3 h3 a4 h4 a5 h5 a6 h6 hc0 hc1 x0 x1 xs0 xs1)]
  unfold kernelRun0_C
  dsimp only
  sl_unfold_words
  rw [View.canon_unit_zero hz3, View.readCov_unit_zero (S := S1x32) _ hz2, View.readCov_unit_zero (S := S64x32) _ hz2]
  simp only [View.readAt_eq_ld, h2.read_unread, h3.read_unread, h5.read_unread, h6.read_unread,
    View.ld_unit_zero (S := S1x4096x64) hz3, View.ld_unit_zero (S := S64x32) hz2, View.ld_unit_zero (S := S1x32) hz2]

/-- The first tile of a batch entry: the aggregate is the tile added to zero. -/
theorem sout_A_0 (c : Dev nD) (i : grid0.Coords) (a2 : Memref sig .tc .vmem S1x4096x64 .f32) (h2 : a2.IsWhole) (a3 : Memref sig .tc .vmem S64x32 .f32) (h3 : a3.IsWhole) (a4 : Memref sig .tc .vmem S1x32x64 .f32) (h4 : a4.IsWhole) (a5 : Memref sig .tc .vmem S64x32 .f32) (h5 : a5.IsWhole) (a6 : Memref sig .tc .vmem S1x32 .f32) (h6 : a6.IsWhole) (hc0 : cond0_0 i) (hc1 : ¬cond0_1 i)
    (x0 : Vec F S1x4096x64 .f32) (x1 : Vec F S64x32 .f32) :
    sout0_A_0 c i a2 h2 a3 h3 a4 h4 a5 h5 a6 h6 hc0 hc1 x0 x1 = addTileS x0 x1 k0_pay4 := by
  unfold sout0_A_0
  rw [View.read_writes_eq_canon _ _ _ (scover0_A_0 c i a2 h2 a3 h3 a4 h4 a5 h5 a6 h6 hc0 hc1 x0 x1)]
  unfold kernelRun0_A
  dsimp only
  sl_unfold_words
  rw [View.canon_cons_unit_zero (S := S64x32) hz2, View.readCov_unit_zero (S := S64x32) _ hz2]
  simp only [View.readAt_eq_ld, h2.read_unread, h3.read_unread, h5.read_unread, h6.read_unread,
    View.ld_unit_zero (S := S1x4096x64) hz3, View.ld_unit_zero (S := S64x32) hz2, View.ld_unit_zero (S := S1x32) hz2]

/-- The first tile of a batch entry: the masses are the tile's added to zero. -/
theorem sout_A_1 (c : Dev nD) (i : grid0.Coords) (a2 : Memref sig .tc .vmem S1x4096x64 .f32) (h2 : a2.IsWhole) (a3 : Memref sig .tc .vmem S64x32 .f32) (h3 : a3.IsWhole) (a4 : Memref sig .tc .vmem S1x32x64 .f32) (h4 : a4.IsWhole) (a5 : Memref sig .tc .vmem S64x32 .f32) (h5 : a5.IsWhole) (a6 : Memref sig .tc .vmem S1x32 .f32) (h6 : a6.IsWhole) (hc0 : cond0_0 i) (hc1 : ¬cond0_1 i)
    (x0 : Vec F S1x4096x64 .f32) (x1 : Vec F S64x32 .f32) :
    sout0_A_1 c i a2 h2 a3 h3 a4 h4 a5 h5 a6 h6 hc0 hc1 x0 x1 = addTileW x0 x1 k0_pay5 := by
  unfold sout0_A_1
  rw [View.read_writes_eq_canon _ _ _ (scover0_A_1 c i a2 h2 a3 h3 a4 h4 a5 h5 a6 h6 hc0 hc1 x0 x1)]
  unfold kernelRun0_A
  dsimp only
  sl_unfold_words
  rw [View.canon_cons_unit_zero (S := S1x32) hz2, View.readCov_unit_zero (S := S1x32) _ hz2]
  simp only [View.readAt_eq_ld, h2.read_unread, h3.read_unread, h5.read_unread, h6.read_unread,
    View.ld_unit_zero (S := S1x4096x64) hz3, View.ld_unit_zero (S := S64x32) hz2, View.ld_unit_zero (S := S1x32) hz2]

end Cert.KernelIdeal.Pieces

end
-- ==== Proof.KernelSteps.lean ====
/-
  The grid as a recurrence. The 128 grid points run through the 32 batch entries, four consecutive points (the four
  tiles of 4096 rows) per entry. At the first tile of an entry the two accumulators are the tile added to zero; at
  every other tile they are the tile added to what the point before left; at the fourth tile the output block is the
  normalised residual of the accumulators that tile has just completed. These are the three step equations of the
  recurrence, read off the point-by-point contents case by case. Stated for any float instance.
-/
import proofs.«138686_j45775761440891_1_alg».proof.Proof.KernelPieces

noncomputable section

open Idealize.ShloMosaic Idealize.ShloMosaic.TcCoe Idealize.SL.Sem

namespace Cert.KernelIdeal.Steps

open Cert.KernelIdeal Cert.KernelIdeal.Gen Cert.KernelIdeal.Pieces

variable {F : FTy → Type} [FloatOps F]
variable (m : (ℓ : Loc nD τ sig) → Buf (Elt F) ℓ)

/-- The aggregate the point before `t` left. -/
abbrev prevS (c : Dev nD) (t : Fin cfg0.N) : Vec F S64x32 .f32 :=
  (outsAt0 m c (t.val - 1) (Nat.lt_of_le_of_lt (Nat.sub_le _ _) t.isLt)).2.1

/-- The centroid masses the point before `t` left. -/
abbrev prevW (c : Dev nD) (t : Fin cfg0.N) : Vec F S1x32 .f32 :=
  (outsAt0 m c (t.val - 1) (Nat.lt_of_le_of_lt (Nat.sub_le _ _) t.isLt)).2.2

/-- First tile of a batch entry: the aggregate restarts from zero. -/
theorem first_S (c : Dev nD) (t : Fin cfg0.N) (h0 : t.val % 4 = 0) :
    (outsAt0 m c t.val t.isLt).2.1 = addTileS (iblk m c 0 t) (iblk m c 1 t) k0_pay4 := by
  have h1 : ¬t.val % 4 = 3 := by omega
  rw [outsAt0_A m c t h0 h1]
  dsimp only
  exact sout_A_0 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t)

/-- First tile of a batch entry: the masses restart from zero. -/
theorem first_W (c : Dev nD) (t : Fin cfg0.N) (h0 : t.val % 4 = 0) :
    (outsAt0 m c t.val t.isLt).2.2 = addTileW (iblk m c 0 t) (iblk m c 1 t) k0_pay5 := by
  have h1 : ¬t.val % 4 = 3 := by omega
  rw [outsAt0_A m c t h0 h1]
  dsimp only
  exact sout_A_1 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t)

/-- Any later tile: the aggregate is the previous point's with this tile added. -/
theorem next_S (c : Dev nD) (t : Fin cfg0.N) (h0 : ¬t.val % 4 = 0) :
    (outsAt0 m c t.val t.isLt).2.1 = addTileS (iblk m c 0 t) (iblk m c 1 t) (prevS m c t) := by
  by_cases h1 : t.val % 4 = 3
  · rw [outsAt0_C m c t h0 h1]
    dsimp only
    exact sout_C_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (prevS m c t) (prevW m c t)
  · rw [outsAt0_B m c t h0 h1]
    dsimp only
    exact sout_B_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t) (prevS m c t) (prevW m c t)

/-- Any later tile: the masses are the previous point's with this tile added. -/
theorem next_W (c : Dev nD) (t : Fin cfg0.N) (h0 : ¬t.val % 4 = 0) :
    (outsAt0 m c t.val t.isLt).2.2 = addTileW (iblk m c 0 t) (iblk m c 1 t) (prevW m c t) := by
  by_cases h1 : t.val % 4 = 3
  · rw [outsAt0_C m c t h0 h1]
    dsimp only
    exact sout_C_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (prevS m c t) (prevW m c t)
  · rw [outsAt0_B m c t h0 h1]
    dsimp only
    exact sout_B_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t) (prevS m c t) (prevW m c t)

/-- Fourth tile: the output block is the normalised residual of the two accumulators as this tile completes them. -/
theorem last_out (c : Dev nD) (t : Fin cfg0.N) (h1 : t.val % 4 = 3) :
    (outsAt0 m c t.val t.isLt).1
      = k0_pay3 (iblk m c 1 t) (addTileW (iblk m c 0 t) (iblk m c 1 t) (prevW m c t))
          (addTileS (iblk m c 0 t) (iblk m c 1 t) (prevS m c t)) := by
  have h0 : ¬t.val % 4 = 0 := by omega
  rw [outsAt0_C m c t h0 h1]
  dsimp only
  exact out_C_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (prevS m c t) (prevW m c t)

end Cert.KernelIdeal.Steps

end
-- ==== Proof.SoftAssign.lean ====
/-
  Soft assignment of unit rows to centroids, and the normalised residual aggregate, on the extended reals.

  A row `r` of 64 numbers is first scaled to unit length, `u = r / max(‖r‖, ε)`. Its logit towards centroid `c`
  is `-(‖u‖² + ‖cent_c‖² - 2·⟨u, cent_c⟩)·10`, minus ten times the squared distance; the soft assignment is the
  softmax of the 32 logits, taken after subtracting their maximum. Over the `N` rows of one batch entry the
  aggregate is `S d c = Σₙ uₙ d · aₙ c` and the mass of each centroid `W c = Σₙ aₙ c`; the residual
  `S d c - cent d c · W c`, read as 32 rows of 64, is scaled to unit length row by row and then as one vector of
  2048 numbers. Every operation is the exact one on `EReal`; the only laws used later are that a finite sum may be
  taken in any grouping (`sum_tiles`, `sum_pairs`), which hold in any commutative additive monoid and so at the
  infinities too.
-/
import Idealize.ShloMosaic.PureOps.Ideal.Laws
import Idealize.ShloMosaic.Lib.ValueIdx
import Mathlib.Algebra.BigOperators.Fin

noncomputable section

open Idealize.ShloMosaic Idealize.ShloMosaic.ValueIdx

namespace Cert.SoftAssign

/-- The floor under every length a vector is divided by. -/
abbrev eps : EReal := Ideal.ofBits .f32 0x2B8CBCCC#32
abbrev two : EReal := Ideal.ofBits .f32 0x40000000#32
abbrev ten : EReal := Ideal.ofBits .f32 0x41200000#32
/-- The value the running maximum starts from. -/
abbrev negInf : EReal := Ideal.ofBits .f32 0xFF800000#32

/-- A vector divided by the larger of its Euclidean length and `ε`. -/
def unitize {n : ℕ} (r : Fin n → EReal) (d : Fin n) : EReal :=
  Ideal.div (r d) (max (Ideal.sqrt (∑ k, r k * r k)) eps)

/-- Minus ten times the squared distance between a row `u` and centroid `c`, the distance expanded as
    `‖u‖² + ‖cent_c‖² - 2⟨u, cent_c⟩`. -/
def logit (u : Fin 64 → EReal) (cent : Fin 64 → Fin 32 → EReal) (c : Fin 32) : EReal :=
  -((∑ k, u k * u k) + (∑ k, cent k c * cent k c) - two * ∑ k, u k * cent k c) * ten

/-- The largest of 32 numbers, as a fold of `max` from `-∞`. -/
def rowMax (l : Fin 32 → EReal) : EReal := (Finset.univ : Finset (Fin 32)).fold max negInf l

/-- The softmax of 32 numbers, each shifted by their maximum before the exponential. -/
def softmax (l : Fin 32 → EReal) (c : Fin 32) : EReal :=
  Ideal.div (Ideal.exp (l c - rowMax l)) (∑ k, Ideal.exp (l k - rowMax l))

/-- The soft assignment of a raw row to the 32 centroids. -/
def assign (r : Fin 64 → EReal) (cent : Fin 64 → Fin 32 → EReal) (c : Fin 32) : EReal :=
  softmax (logit (unitize r) cent) c

/-- One row's contribution to the aggregate at `(d, c)`. -/
def term (r : Fin 64 → EReal) (cent : Fin 64 → Fin 32 → EReal) (d : Fin 64) (c : Fin 32) : EReal :=
  unitize r d * assign r cent c

/-- The residual of the aggregate `S` against the centroids weighted by their mass `W`, as 32 rows of 64. -/
def resid (cent S : Fin 64 → Fin 32 → EReal) (W : Fin 32 → EReal) (c : Fin 32) (d : Fin 64) : EReal :=
  S d c - cent d c * W c

/-- 32 rows of 64 divided, all of them, by the larger of `ε` and the length of the 2048 numbers as one vector. -/
def unitizeAll (v : Fin 32 → Fin 64 → EReal) (c : Fin 32) (d : Fin 64) : EReal :=
  Ideal.div (v c d) (max (Ideal.sqrt (∑ c', ∑ d', v c' d' * v c' d')) eps)

/-- The normalised residual aggregate: each row of the residual to unit length, then the whole to unit length. -/
def vlad (cent S : Fin 64 → Fin 32 → EReal) (W : Fin 32 → EReal) (c : Fin 32) (d : Fin 64) : EReal :=
  unitizeAll (fun c' => unitize (resid cent S W c')) c d

/-! ## The whole computation, from the two argument arrays -/

/-- Row `n` of batch entry `b` of the input `x : [32, 16384, 64]`. -/
def rowOf (x : (⟨3, ![32, 16384, 64]⟩ : Shape).Idx → EReal) (b : Fin 32) (n : Fin 16384) (k : Fin 64) : EReal :=
  x (ix3 b n k)

/-- The centroid array `[64, 32]` by its two coordinates. -/
def centOf (cent : (⟨2, ![64, 32]⟩ : Shape).Idx → EReal) (k : Fin 64) (c : Fin 32) : EReal := cent (ix2 k c)

/-- The aggregate of batch entry `b`: the sum over its 16384 rows of each row's contribution. -/
def aggS (x : (⟨3, ![32, 16384, 64]⟩ : Shape).Idx → EReal) (cent : (⟨2, ![64, 32]⟩ : Shape).Idx → EReal)
    (b : Fin 32) (d : Fin 64) (c : Fin 32) : EReal :=
  ∑ n : Fin 16384, term (rowOf x b n) (centOf cent) d c

/-- The mass each centroid receives from batch entry `b`. -/
def aggW (x : (⟨3, ![32, 16384, 64]⟩ : Shape).Idx → EReal) (cent : (⟨2, ![64, 32]⟩ : Shape).Idx → EReal)
    (b : Fin 32) (c : Fin 32) : EReal :=
  ∑ n : Fin 16384, assign (rowOf x b n) (centOf cent) c

/-- The normalised residual aggregate of batch entry `b`, at cluster `c` and feature `d`. -/
def vladOf (x : (⟨3, ![32, 16384, 64]⟩ : Shape).Idx → EReal) (cent : (⟨2, ![64, 32]⟩ : Shape).Idx → EReal)
    (b : Fin 32) (c : Fin 32) (d : Fin 64) : EReal :=
  vlad (centOf cent) (aggS x cent b) (aggW x cent b) c d

/-- The result as an array `[32, 32, 64]`. -/
def result3 (x : (⟨3, ![32, 16384, 64]⟩ : Shape).Idx → EReal) (cent : (⟨2, ![64, 32]⟩ : Shape).Idx → EReal) :
    (⟨3, ![32, 32, 64]⟩ : Shape).Idx → EReal :=
  fun i => vladOf x cent (i 0) (i 1) (i 2)

/-- The result as the array `[32, 2048]`: position `j` of a row is cluster `j / 64`, feature `j % 64`. -/
def result (x : (⟨3, ![32, 16384, 64]⟩ : Shape).Idx → EReal) (cent : (⟨2, ![64, 32]⟩ : Shape).Idx → EReal) :
    (⟨2, ![32, 2048]⟩ : Shape).Idx → EReal :=
  fun i => vladOf x cent (i 0) ⟨(i 1).val / 64, by have := idx2_lt1 (n0 := 32) (n1 := 2048) i; omega⟩
    ⟨(i 1).val % 64, Nat.mod_lt _ (by decide)⟩

/-- The running maximum never falls below its start, so taking the larger of the start and the fold changes nothing. -/
theorem max_start_rowMax (l : Fin 32 → EReal) : max negInf (rowMax l) = rowMax l :=
  max_eq_right ((Finset.le_fold_max _).mpr (Or.inl le_rfl))

/-- Subtracting from zero negates. -/
theorem zero_sub_eq_neg (x : EReal) : Ideal.ofBits .f32 0x00000000#32 - x = -x := by
  rw [Ideal.ofBits_zero_f32, zero_sub]

section Sums

variable {M : Type*} [AddCommMonoid M]

/-- A sum over `A * B` consecutive positions, taken as `A` tiles of `B`: position `a * B + b` is entry `b` of tile `a`. -/
theorem sum_tiles (A B N : ℕ) (hN : N = A * B) (f : ℕ → M) :
    ∑ k : Fin N, f k.val = ∑ a : Fin A, ∑ b : Fin B, f (a.val * B + b.val) := by
  subst hN
  rw [← Equiv.sum_comp finProdFinEquiv (fun k : Fin (A * B) => f k.val), Fintype.sum_prod_type]
  refine Finset.sum_congr rfl fun a _ => Finset.sum_congr rfl fun b _ => ?_
  show f (b.val + B * a.val) = _
  rw [Nat.add_comm, Nat.mul_comm]

/-- The same over `Finset.range` for the tiles. -/
theorem sum_range_tiles (A B N : ℕ) (hN : N = A * B) (f : ℕ → M) :
    ∑ a ∈ Finset.range A, ∑ b : Fin B, f (a * B + b.val) = ∑ k : Fin N, f k.val := by
  rw [sum_tiles A B N hN f, Finset.sum_range]

end Sums

end Cert.SoftAssign

end
-- ==== Proof.KernelPayloads.lean ====
/-
  The kernel body's arithmetic, read at an index, on the extended reals.

  The body's values are a handful of pure terms over the blocks it loads: the tile's rows scaled to unit length; the
  soft assignment of every row (inner products with the centroids into a zero accumulator, the expanded squared
  distance, the negation written as zero minus, the row maximum seeded with `-∞`, the softmax); the two updates of
  the accumulators, `acc + uᵀ·a` (a contraction over the tile's 4096 rows) and `acc + Σ a`; the two zero fills; and
  the last one, the residual normalised row by row and then as a whole, whose sum of squares runs over every index of
  a `[1, 32, 64]` array — the double sum over clusters and features. Each is read at an index built from its
  coordinates as the corresponding function of `SoftAssign`.
-/
import proofs.«138686_j45775761440891_1_alg».proof.Proof.Gen.KernelIdeal.Skeleton
import proofs.«138686_j45775761440891_1_alg».proof.Proof.SoftAssign
import Idealize.ShloMosaic.Lib.Pipeline.Value
import Idealize.ShloMosaic.Lib.ValueLayout

noncomputable section

open Idealize.ShloMosaic Idealize.ShloMosaic.ValueIdx

namespace Cert.KernelIdeal.Payloads

open Cert.KernelIdeal Cert.KernelIdeal.Gen Cert.SoftAssign

/-! ## Layout and reduction operations of a matrix, read at an index given by its coordinates -/

section Generic
variable {α : Type} {a b : ℕ}

/-- A vector of extent a cast to a column [a, 1] reads, at (i, u), the operand at i. -/
theorem shapeCast_a_a1_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column's entry p. -/
theorem broadcastTo_a1_ab_apply (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A [1, 1] array broadcast to [a, b] reads its one entry everywhere. -/
theorem broadcastTo_11_ab_apply (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) :=
  broadcastTo_apply v h (ix2 p c) (ix2 (0 : Fin 1) (0 : Fin 1)) fun ax =>
    match ax with
    | ⟨0, _⟩ => rfl
    | ⟨1, _⟩ => rfl

/-- Over a reduction along the columns, the source index above row r with column k is (r, k). -/
theorem lift_axis1 (h : (⟨2, ![a, b]⟩ : Shape).Reduces [1] ⟨1, ![a]⟩) (r : Fin a) (k : Fin b) :
    h.lift (ix1 r) k = ix2 r k := by
  funext ax; apply Fin.ext
  match ax with
  | ⟨0, _⟩ => rfl
  | ⟨1, _⟩ => rfl

/-- Over a reduction along the rows, the source index above column c with row k is (k, c). -/
theorem lift_axis0 (h : (⟨2, ![a, b]⟩ : Shape).Reduces [0] ⟨1, ![b]⟩) (c : Fin b) (k : Fin a) :
    h.lift (ix1 c) k = ix2 k c := by
  funext ax; apply Fin.ext
  match ax with
  | ⟨0, _⟩ => rfl
  | ⟨1, _⟩ => rfl

/-- The sum along the columns, at row r. -/
theorem sum_axis1 (src : FVec Ideal ⟨2, ![a, b]⟩ .f32) (acc : BitVec 32) (h : (⟨2, ![a, b]⟩ : Shape).Reduces [1] ⟨1, ![a]⟩)
    (hφ : FKind.Formats .f32) (hacc : acc = FKind.add.neutral .f32 hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_axis1 h r k))

/-- The sum along the rows, at column c. -/
theorem sum_axis0 (src : FVec Ideal ⟨2, ![a, b]⟩ .f32) (acc : BitVec 32) (h : (⟨2, ![a, b]⟩ : Shape).Reduces [0] ⟨1, ![b]⟩)
    (hφ : FKind.Formats .f32) (hacc : acc = FKind.add.neutral .f32 hφ) (c : Fin b) :
    multiReduction .add [0] ⟨1, ![b]⟩ src acc h hφ hacc (ix1 c) = ∑ k : Fin a, src (ix2 k c) :=
  (Ideal.multiReduction_add_single src acc h hφ hacc (ix1 c)).trans
    (Finset.sum_congr rfl fun k _ => congrArg src (lift_axis0 h c k))

/-- The maximum along the columns, at row r: the fold of max from the accumulator's value. -/
theorem max_axis1 (src : FVec Ideal ⟨2, ![a, b]⟩ .f32) (acc : BitVec 32) (h : (⟨2, ![a, b]⟩ : Shape).Reduces [1] ⟨1, ![a]⟩)
    (hφ : FKind.Formats .f32) (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun k => src (ix2 r k)) :=
  (Ideal.multiReduction_maximumf_single src acc h hφ hacc (ix1 r)).trans
    (congrArg (fun f => Finset.fold max (Ideal.ofBits .f32 acc) f (Finset.univ : Finset (Fin b)))
      (funext fun k => congrArg src (lift_axis1 h r k)))

/-- Every row of a matrix divided by the larger of its length and the floor, as a kernel writes it: the squares summed
    along the columns, kept as a column, its root, the maximum with the splat of the floor, the column broadcast back,
    the quotient. At (p, d) it is unitize of row p. -/
theorem rowUnit_apply (x : FVec Ideal ⟨2, ![a, b]⟩ .f32) (hr : (⟨2, ![a, b]⟩ : Shape).Reduces [1] ⟨1, ![a]⟩)
    (hφ : FKind.Formats .f32) (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, b]⟩)
    (p : Fin a) (d : Fin b) :
    divf x (broadcastTo ⟨2, ![a, b]⟩ (maximumf (sqrt (shapeCast ⟨2, ![a, 1]⟩
        (multiReduction .add [1] ⟨1, ![a]⟩ (mulf x x) 0x00000000#32 hr hφ hacc) hc))
        (broadcast ⟨2, ![a, 1]⟩ (Scalar.ofBits (F := Ideal) .f32 0x2B8CBCCC#32))) hb) (ix2 p d)
      = unitize (fun k => x (ix2 p k)) d := by
  unfold unitize
  refine congrArg (Ideal.div (x (ix2 p d))) ?_
  refine (broadcastTo_a1_ab_apply _ hb p d).trans ?_
  refine congrArg (fun s => max (Ideal.sqrt s) eps) ?_
  refine (shapeCast_a_a1_apply _ hc p 0).trans ?_
  exact sum_axis1 (mulf x x) _ hr hφ hacc p

end Generic

theorem pay6_apply (v3 : Vec Ideal S1x4096x64 .f32) (q : Fin 4096) (d : Fin 64) :
    k0_pay6 (F := Ideal) v3 (ix2 q d) = unitize (fun k => v3 (ix3 (0 : Fin 1) q k)) d := by
  unfold k0_pay6
  refine (rowUnit_apply (a := 4096) (b := 64) (shapeCast S4096x64 v3 shapeCasts_S1x4096x64_S4096x64)
    reduces_S4096x64_S4096 _ _ shapeCasts_S4096_S4096x1 broadcasts_S4096x1_S4096x64 q d).trans ?_
  exact congrArg (fun r => unitize r d) (funext fun k => shapeCast_1ab_ab_apply v3 _ q k)

/-! ## The soft assignment of a tile's rows -/

/-- The record of the product of the unit rows with the centroids: axis 1 of the left against axis 0 of the right. -/
abbrev D7 := dot_S4096x64_S64x32_S4096x32_1_0_0_1_n_n

/-- The left operand's index at output (q, c) and contraction coordinate k is (q, k). -/
theorem D7_lhsIdx (q : Fin 4096) (c : Fin 32) (k : Fin 64) :
    D7.lhsIdx (ix2 q c) ((contrEquiv1 D7 64 rfl rfl).symm k) = ix2 q k := by
  have ck := contrEquiv1_symm_val D7 64 rfl rfl k
  funext ax; apply Fin.ext
  match ax with
  | ⟨0, _⟩ => simp [DotDims.lhsIdx, D7, dot_S4096x64_S64x32_S4096x32_1_0_0_1_n_n]; rfl
  | ⟨1, _⟩ => simp [DotDims.lhsIdx, D7, dot_S4096x64_S64x32_S4096x32_1_0_0_1_n_n]; exact ck

/-- The right operand's index at output (q, c) and contraction coordinate k is (k, c). -/
theorem D7_rhsIdx (q : Fin 4096) (c : Fin 32) (k : Fin 64) :
    D7.rhsIdx (ix2 q c) ((contrEquiv1 D7 64 rfl rfl).symm k) = ix2 k c := by
  have ck := contrEquiv1_symm_val D7 64 rfl rfl k
  funext ax; apply Fin.ext
  match ax with
  | ⟨0, _⟩ => simp [DotDims.rhsIdx, D7, dot_S4096x64_S64x32_S4096x32_1_0_0_1_n_n]; exact ck
  | ⟨1, _⟩ => simp [DotDims.rhsIdx, D7, dot_S4096x64_S64x32_S4096x32_1_0_0_1_n_n]; rfl

/-- The inner products of the rows of u with the centroids. -/
def dots (u : FVec Ideal S4096x64 .f32) (v5 : FVec Ideal S64x32 .f32) : FVec Ideal S4096x32 .f32 :=
  matmul D7 none u v5 (constant S4096x32 .f32 0x00000000#32)

theorem dots_apply (u : FVec Ideal S4096x64 .f32) (v5 : FVec Ideal S64x32 .f32) (q : Fin 4096) (c : Fin 32) :
    dots u v5 (ix2 q c) = ∑ k : Fin 64, u (ix2 q k) * v5 (ix2 k c) := by
  unfold dots
  refine (Ideal.matmul_constant_zero_apply D7 none u v5 (ix2 q c)).trans ?_
  rw [← Equiv.sum_comp (contrEquiv1 D7 64 rfl rfl).symm]
  refine Finset.sum_congr rfl fun k _ => ?_
  rw [D7_lhsIdx, D7_rhsIdx]

/-- The squared length of every row of u, repeated along the 32 centroids. -/
def sqRows (u : FVec Ideal S4096x64 .f32) : FVec Ideal S4096x32 .f32 :=
  broadcastTo S4096x32 (shapeCast S4096x1 (multiReduction .add [1] S4096 (mulf u u) 0x00000000#32
    reduces_S4096x64_S4096 (.inl rfl) rfl) shapeCasts_S4096_S4096x1) broadcasts_S4096x1_S4096x32

theorem sqRows_apply (u : FVec Ideal S4096x64 .f32) (q : Fin 4096) (c : Fin 32) :
    sqRows u (ix2 q c) = ∑ k : Fin 64, u (ix2 q k) * u (ix2 q k) :=
  (broadcastTo_a1_ab_apply _ broadcasts_S4096x1_S4096x32 q c).trans
    ((shapeCast_a_a1_apply _ shapeCasts_S4096_S4096x1 q 0).trans
      (sum_axis1 (mulf u u) _ reduces_S4096x64_S4096 _ _ q))

/-- The squared length of every centroid, repeated along the 4096 rows. -/
def sqCents (v5 : FVec Ideal S64x32 .f32) : FVec Ideal S4096x32 .f32 :=
  broadcastTo S4096x32 (shapeCast S1x32 (multiReduction .add [0] S32 (mulf v5 v5) 0x00000000#32
    reduces_S64x32_S32 (.inl rfl) rfl) shapeCasts_S32_S1x32) broadcasts_S1x32_S4096x32

theorem sqCents_apply (v5 : FVec Ideal S64x32 .f32) (q : Fin 4096) (c : Fin 32) :
    sqCents v5 (ix2 q c) = ∑ k : Fin 64, v5 (ix2 k c) * v5 (ix2 k c) :=
  (broadcastTo_1b_ab_apply _ broadcasts_S1x32_S4096x32 q c).trans
    ((shapeCast_a_1a_apply _ shapeCasts_S32_S1x32 0 c).trans
      (sum_axis0 (mulf v5 v5) _ reduces_S64x32_S32 _ _ c))

/-- The logits of every row: zero minus the expanded squared distance, times ten. -/
def logits (u : FVec Ideal S4096x64 .f32) (v5 : FVec Ideal S64x32 .f32) : FVec Ideal S4096x32 .f32 :=
  mulf (subf (broadcast S4096x32 (Scalar.ofBits (F := Ideal) .f32 0x00000000#32))
      (subf (addf (sqRows u) (sqCents v5))
        (mulf (broadcast S4096x32 (Scalar.ofBits (F := Ideal) .f32 0x40000000#32)) (dots u v5))))
    (broadcast S4096x32 (Scalar.ofBits (F := Ideal) .f32 0x41200000#32))

theorem logits_apply (u : FVec Ideal S4096x64 .f32) (v5 : FVec Ideal S64x32 .f32) (q : Fin 4096) (c : Fin 32) :
    logits u v5 (ix2 q c) = logit (fun k => u (ix2 q k)) (fun k c' => v5 (ix2 k c')) c := by
  show (Ideal.ofBits .f32 0x00000000#32 - ((sqRows u (ix2 q c) + sqCents v5 (ix2 q c)) - two * dots u v5 (ix2 q c))) * ten = _
  rw [zero_sub_eq_neg, sqRows_apply, sqCents_apply, dots_apply]
  rfl

/-- Every logit less its row's maximum, exponentiated. -/
def shifted (l : FVec Ideal S4096x32 .f32) : FVec Ideal S4096x32 .f32 :=
  exp (subf l (broadcastTo S4096x32 (shapeCast S4096x1 (multiReduction .maximumf [1] S4096 l 0xFF800000#32
    reduces_S4096x32_S4096 (.inl rfl) rfl) shapeCasts_S4096_S4096x1) broadcasts_S4096x1_S4096x32))

theorem shifted_apply (l : FVec Ideal S4096x32 .f32) (q : Fin 4096) (c : Fin 32) :
    shifted l (ix2 q c) = Ideal.exp (l (ix2 q c) - rowMax (fun k => l (ix2 q k))) := by
  unfold shifted
  refine congrArg (fun m => Ideal.exp (l (ix2 q c) - m)) ?_
  refine (broadcastTo_a1_ab_apply _ broadcasts_S4096x1_S4096x32 q c).trans ?_
  refine (shapeCast_a_a1_apply _ shapeCasts_S4096_S4096x1 q 0).trans ?_
  exact max_axis1 l _ reduces_S4096x32_S4096 _ _ q

/-- The softmax of every row of logits. -/
def softRows (l : FVec Ideal S4096x32 .f32) : FVec Ideal S4096x32 .f32 :=
  divf (shifted l) (broadcastTo S4096x32 (shapeCast S4096x1 (multiReduction .add [1] S4096 (shifted l) 0x00000000#32
    reduces_S4096x32_S4096 (.inl rfl) rfl) shapeCasts_S4096_S4096x1) broadcasts_S4096x1_S4096x32)

theorem softRows_apply (l : FVec Ideal S4096x32 .f32) (q : Fin 4096) (c : Fin 32) :
    softRows l (ix2 q c) = softmax (fun k => l (ix2 q k)) c := by
  unfold softRows softmax
  refine congrArg₂ Ideal.div (shifted_apply l q c) ?_
  refine (broadcastTo_a1_ab_apply _ broadcasts_S4096x1_S4096x32 q c).trans ?_
  refine (shapeCast_a_a1_apply _ shapeCasts_S4096_S4096x1 q 0).trans ?_
  refine (sum_axis1 (shifted l) _ reduces_S4096x32_S4096 _ _ q).trans ?_
  exact Finset.sum_congr rfl fun k _ => shifted_apply l q k

/-- The kernel's soft-assignment payload is the softmax of the logits of its unit rows. -/
theorem pay7_eq (v3 : Vec Ideal S1x4096x64 .f32) (v5 : Vec Ideal S64x32 .f32) :
    k0_pay7 (F := Ideal) v3 v5 = softRows (logits (k0_pay6 (F := Ideal) v3) v5) := rfl

theorem pay7_apply (v3 : Vec Ideal S1x4096x64 .f32) (v5 : Vec Ideal S64x32 .f32) (q : Fin 4096) (c : Fin 32) :
    k0_pay7 (F := Ideal) v3 v5 (ix2 q c) = assign (fun k => v3 (ix3 (0 : Fin 1) q k)) (fun k c' => v5 (ix2 k c')) c := by
  rw [pay7_eq]
  refine (softRows_apply _ q c).trans ?_
  unfold assign
  refine congrArg (fun l => softmax l c) (funext fun c' => ?_)
  refine (logits_apply _ v5 q c').trans ?_
  exact congrArg (fun u => logit u (fun k c'' => v5 (ix2 k c'')) c') (funext fun k => pay6_apply v3 q k)

/-! ## The two accumulations -/

/-- The record of the product contracting axis 0 of both operands. -/
abbrev D1 := dot_S4096x64_S4096x32_S64x32_0_0_1_1_n_n

/-- The left operand's index at output `(d, c)` and contraction coordinate `q` is `(q, d)`. -/
theorem D1_lhsIdx (d : Fin 64) (c : Fin 32) (q : Fin 4096) :
    D1.lhsIdx (ix2 d c) ((contrEquiv1 D1 4096 rfl rfl).symm q) = ix2 q d := by
  have cq := contrEquiv1_symm_val D1 4096 rfl rfl q
  funext ax; apply Fin.ext
  match ax with
  | ⟨0, _⟩ => simp [DotDims.lhsIdx, D1, dot_S4096x64_S4096x32_S64x32_0_0_1_1_n_n]; exact cq
  | ⟨1, _⟩ => simp [DotDims.lhsIdx, D1, dot_S4096x64_S4096x32_S64x32_0_0_1_1_n_n]; rfl

/-- The right operand's index at output `(d, c)` and contraction coordinate `q` is `(q, c)`. -/
theorem D1_rhsIdx (d : Fin 64) (c : Fin 32) (q : Fin 4096) :
    D1.rhsIdx (ix2 d c) ((contrEquiv1 D1 4096 rfl rfl).symm q) = ix2 q c := by
  have cq := contrEquiv1_symm_val D1 4096 rfl rfl q
  funext ax; apply Fin.ext
  match ax with
  | ⟨0, _⟩ => simp [DotDims.rhsIdx, D1, dot_S4096x64_S4096x32_S64x32_0_0_1_1_n_n]; exact cq
  | ⟨1, _⟩ => simp [DotDims.rhsIdx, D1, dot_S4096x64_S4096x32_S64x32_0_0_1_1_n_n]; rfl

theorem pay1_apply (v13 : FVec Ideal S4096x64 .f32) (v39 : FVec Ideal S4096x32 .f32) (v40 : Vec Ideal S64x32 .f32)
    (d : Fin 64) (c : Fin 32) :
    k0_pay1 (F := Ideal) v13 v39 v40 (ix2 d c) = v40 (ix2 d c) + ∑ q : Fin 4096, v13 (ix2 q d) * v39 (ix2 q c) := by
  unfold k0_pay1
  rw [shapeCast_self]
  refine congrArg (v40 (ix2 d c) + ·) ?_
  refine (Ideal.matmul_constant_zero_apply D1 none v13 v39 (ix2 d c)).trans ?_
  rw [← Equiv.sum_comp (contrEquiv1 D1 4096 rfl rfl).symm]
  refine Finset.sum_congr rfl fun q _ => ?_
  rw [D1_lhsIdx, D1_rhsIdx]

theorem pay2_apply (v39 : FVec Ideal S4096x32 .f32) (v46 : Vec Ideal S1x32 .f32) (c : Fin 32) :
    k0_pay2 (F := Ideal) v39 v46 (ix2 (0 : Fin 1) c) = v46 (ix2 (0 : Fin 1) c) + ∑ q : Fin 4096, v39 (ix2 q c) := by
  unfold k0_pay2
  rw [shapeCast_self]
  refine congrArg (v46 (ix2 (0 : Fin 1) c) + ·) ?_
  refine (shapeCast_a_1a_apply _ shapeCasts_S32_S1x32 0 c).trans ?_
  exact sum_axis0 v39 _ reduces_S4096x32_S32 _ _ c

/-! ## The normalised residual aggregate -/

/-- The index set of a [1, n1, n2] array is the product of its last two coordinate ranges. -/
def idxEquiv3u {n1 n2 : ℕ} : (⟨3, ![1, n1, n2]⟩ : Shape).Idx ≃ Fin n1 × Fin n2 where
  toFun i := (i 1, i 2)
  invFun p := ix3 (0 : Fin 1) p.1 p.2
  left_inv i := by
    funext ax
    match ax with
    | ⟨0, h0⟩ =>
      exact Fin.ext (by
        have h : (i ⟨0, h0⟩).val < 1 := (i ⟨0, h0⟩).isLt
        show 0 = (i ⟨0, h0⟩).val
        omega)
    | ⟨1, _⟩ => rfl
    | ⟨2, _⟩ => rfl
  right_inv _ := rfl

/-- A sum over the indices of a [1, n1, n2] array is the double sum over the last two coordinates. -/
theorem sum_idx3u {M : Type*} [AddCommMonoid M] {n1 n2 : ℕ} (f : (⟨3, ![1, n1, n2]⟩ : Shape).Idx → M) :
    ∑ i, f i = ∑ b : Fin n1, ∑ c : Fin n2, f (ix3 (0 : Fin 1) b c) := by
  rw [← Equiv.sum_comp (idxEquiv3u (n1 := n1) (n2 := n2)).symm f, Fintype.sum_prod_type]
  rfl

/-- The residual, aggregate less centroid times mass, transposed to 32 rows of 64. -/
def residT (v56 : Vec Ideal S64x32 .f32) (v57 : Vec Ideal S1x32 .f32) (v60 : Vec Ideal S64x32 .f32) :
    FVec Ideal S32x64 .f32 :=
  transpose S32x64 [1, 0] (subf v60 (mulf v56 (broadcastTo S64x32 v57 broadcasts_S1x32_S64x32)))
    transposes_S64x32_p1_0_S32x64

theorem residT_apply (v56 : Vec Ideal S64x32 .f32) (v57 : Vec Ideal S1x32 .f32) (v60 : Vec Ideal S64x32 .f32)
    (c : Fin 32) (d : Fin 64) :
    residT v56 v57 v60 (ix2 c d)
      = resid (fun k c' => v56 (ix2 k c')) (fun k c' => v60 (ix2 k c')) (fun c' => v57 (ix2 (0 : Fin 1) c')) c d := by
  unfold residT resid
  refine (transpose_ix2_apply _ transposes_S64x32_p1_0_S32x64 c d).trans ?_
  show v60 (ix2 d c) - v56 (ix2 d c) * broadcastTo S64x32 v57 broadcasts_S1x32_S64x32 (ix2 d c) = _
  rw [broadcastTo_1b_ab_apply]

/-- Each of the 32 rows divided by the larger of its length and the floor. -/
def unitRows32 (x : FVec Ideal S32x64 .f32) : FVec Ideal S32x64 .f32 :=
  divf x (broadcastTo S32x64 (maximumf (sqrt (shapeCast S32x1 (multiReduction .add [1] S32 (mulf x x) 0x00000000#32
      reduces_S32x64_S32 (.inl rfl) rfl) shapeCasts_S32_S32x1))
    (broadcast S32x1 (Scalar.ofBits (F := Ideal) .f32 0x2B8CBCCC#32))) broadcasts_S32x1_S32x64)

theorem unitRows32_apply (x : FVec Ideal S32x64 .f32) (c : Fin 32) (d : Fin 64) :
    unitRows32 x (ix2 c d) = unitize (fun k => x (ix2 c k)) d :=
  rowUnit_apply (a := 32) (b := 64) x reduces_S32x64_S32 _ _ shapeCasts_S32_S32x1 broadcasts_S32x1_S32x64 c d

/-- The sum of the squares of all 2048 entries, as the kernel takes it: the squares cast to [1, 32, 64], summed over
    the last two axes into one number, read out of its [1, 1, 1] cast. -/
def totalSq (y : FVec Ideal S32x64 .f32) : Ideal .f32 :=
  extractAt ![0, 0, 0] (shapeCast S1x1x1 (multiReduction .add [1, 2] S1
    (shapeCast S1x32x64 (mulf y y) shapeCasts_S32x64_S1x32x64) 0x00000000#32 reduces_S1x32x64_S1 (.inl rfl) rfl)
    shapeCasts_S1_S1x1x1) inpos_S1x1x1_p0_0_0

theorem totalSq_apply (y : FVec Ideal S32x64 .f32) :
    totalSq y = ∑ c : Fin 32, ∑ d : Fin 64, y (ix2 c d) * y (ix2 c d) := by
  unfold totalSq
  refine (Ideal.multiReduction_add_total (shapeCast S1x32x64 (mulf y y) shapeCasts_S32x64_S1x32x64) 0x00000000#32
    reduces_S1x32x64_S1 (fun b => by match b with | ⟨0, _⟩ => rfl) (.inl rfl) rfl _).trans ?_
  refine (sum_idx3u _).trans ?_
  exact Finset.sum_congr rfl fun c _ => Finset.sum_congr rfl fun d _ =>
    shapeCast_ab_1ab_apply (mulf y y) shapeCasts_S32x64_S1x32x64 0 c d

/-- All 2048 entries divided by the larger of their length as one vector and the floor, stored as [1, 32, 64]. -/
def allUnit (y : FVec Ideal S32x64 .f32) : FVec Ideal S1x32x64 .f32 :=
  shapeCast S1x32x64 (divf y (broadcastTo S32x64 (maximumf (sqrt (broadcast S1x1 (totalSq y)))
    (broadcast S1x1 (Scalar.ofBits (F := Ideal) .f32 0x2B8CBCCC#32))) broadcasts_S1x1_S32x64))
    shapeCasts_S32x64_S1x32x64

theorem allUnit_apply (y : FVec Ideal S32x64 .f32) (c : Fin 32) (d : Fin 64) :
    allUnit y (ix3 (0 : Fin 1) c d) = unitizeAll (fun c' d' => y (ix2 c' d')) c d := by
  unfold allUnit unitizeAll
  refine (shapeCast_ab_1ab_apply _ shapeCasts_S32x64_S1x32x64 0 c d).trans ?_
  refine congrArg (Ideal.div (y (ix2 c d))) ?_
  refine (broadcastTo_11_ab_apply _ broadcasts_S1x1_S32x64 c d).trans ?_
  refine congrArg (fun s => max (Ideal.sqrt s) eps) ?_
  exact totalSq_apply y

/-- The kernel's last payload is the residual, normalised row by row and then as a whole. -/
theorem pay3_eq (v56 : Vec Ideal S64x32 .f32) (v57 : Vec Ideal S1x32 .f32) (v60 : Vec Ideal S64x32 .f32) :
    k0_pay3 (F := Ideal) v56 v57 v60 = allUnit (unitRows32 (residT v56 v57 v60)) := rfl

theorem pay3_apply (v56 : Vec Ideal S64x32 .f32) (v57 : Vec Ideal S1x32 .f32) (v60 : Vec Ideal S64x32 .f32)
    (c : Fin 32) (d : Fin 64) :
    k0_pay3 (F := Ideal) v56 v57 v60 (ix3 (0 : Fin 1) c d)
      = vlad (fun k c' => v56 (ix2 k c')) (fun k c' => v60 (ix2 k c')) (fun c' => v57 (ix2 (0 : Fin 1) c')) c d := by
  rw [pay3_eq]
  refine (allUnit_apply _ c d).trans ?_
  unfold vlad
  refine congrArg (fun v => unitizeAll v c d) (funext fun c' => funext fun d' => ?_)
  refine (unitRows32_apply _ c' d').trans ?_
  exact congrArg (fun r => unitize r d') (funext fun k => residT_apply v56 v57 v60 c' k)

/-! ## The two zero fills -/

theorem pay4_apply (d : Fin 64) (c : Fin 32) : k0_pay4 (F := Ideal) (ix2 d c) = 0 := by
  unfold k0_pay4
  rw [shapeCast_self]
  exact Ideal.ofBits_zero_f32

theorem pay5_apply (c : Fin 32) : k0_pay5 (F := Ideal) (ix2 (0 : Fin 1) c) = 0 := by
  unfold k0_pay5
  rw [shapeCast_self]
  exact Ideal.ofBits_zero_f32

end Cert.KernelIdeal.Payloads

end
-- ==== Proof.KernelChain.lean ====
/-
  The kernel's accumulators as sums over rows, at the ideal instance.

  Grid point `t` works on batch entry `t / 4` and on tile `t % 4` of its rows: the input block holds rows
  `4096·(t % 4) … 4096·(t % 4) + 4095` of that entry, and the centroid block is the whole centroid array at every
  point. Adding a tile to an accumulator adds, at `(d, c)`, the sum over the tile's 4096 rows of each row's
  contribution. So after the point the aggregate of the entry holds the contributions of the tiles seen so far, and
  after the fourth tile those of all 16384 rows: the sum taken tile by tile is the sum taken at once.
-/
import proofs.«138686_j45775761440891_1_alg».proof.Proof.KernelSteps
import proofs.«138686_j45775761440891_1_alg».proof.Proof.KernelPayloads

noncomputable section

open Idealize.ShloMosaic Idealize.ShloMosaic.TcCoe Idealize.SL.Sem Idealize.ShloMosaic.ValueIdx

namespace Cert.KernelIdeal.Chain

open Cert.KernelIdeal Cert.KernelIdeal.Gen Cert.KernelIdeal.Pieces Cert.SoftAssign

variable (m : (ℓ : Loc nD τ sig) → Buf (Elt Ideal) ℓ)

/-- The input array and the centroid array as the region finds them. -/
abbrev X (c : Dev nD) : (⟨3, ![32, 16384, 64]⟩ : Shape).Idx → EReal := m ((c.tc : Thread nD τ).loc main_arg0)
abbrev CENT (c : Dev nD) : (⟨2, ![64, 32]⟩ : Shape).Idx → EReal := m ((c.tc : Thread nD τ).loc main_arg1)

/-- A row of the input named by natural numbers (reduced into range, so that it is total). -/
def rowN (x : (⟨3, ![32, 16384, 64]⟩ : Shape).Idx → EReal) (b j : ℕ) (k : Fin 64) : EReal :=
  x (ix3 (⟨b % 32, Nat.mod_lt _ (by decide)⟩ : Fin 32) (⟨j % 16384, Nat.mod_lt _ (by decide)⟩ : Fin 16384) k)

/-- Inside the range it is the row itself. -/
theorem rowN_eq (x : (⟨3, ![32, 16384, 64]⟩ : Shape).Idx → EReal) (b : Fin 32) (n : Fin 16384) :
    rowN x b.val n.val = rowOf x b n := by
  funext k
  unfold rowN rowOf
  refine congrArg x ?_
  funext a
  match a with
  | ⟨0, _⟩ => exact Fin.ext (Nat.mod_eq_of_lt b.isLt)
  | ⟨1, _⟩ => exact Fin.ext (Nat.mod_eq_of_lt n.isLt)
  | ⟨2, _⟩ => rfl

/-- Which block of each array a grid point works on: batch entry `t / 4`, tile `t % 4`; the centroids whole. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0
    ∧ win0_2.index t (0 : Fin 3) = t.val / 4 ∧ win0_2.index t (1 : Fin 3) = 0 ∧ win0_2.index t (2 : Fin 3) = 0 :=
  (by decide +kernel : ∀ t : Fin grid0.N, _)

/-- The input block at point `t`, row `q`: row `4096·(t % 4) + q` of batch entry `t / 4`. -/
theorem iblk0_apply (c : Dev nD) (t : Fin cfg0.N) (q : Fin 4096) (k : Fin 64) :
    (iblk m c 0 t : Vec Ideal S1x4096x64 .f32) (ix3 (0 : Fin 1) q k)
      = rowN (X m c) (t.val / 4) (t.val % 4 * 4096 + q.val) k := by
  obtain ⟨h0, h1, h2, -⟩ := idx_facts t
  have hN : t.val < 128 := lt_of_lt_of_eq t.isLt (show cfg0.N = 128 from N_0)
  unfold iblk rowN
  rw [View.read_apply]
  show V m c main_arg0 _ = m (c.tc.loc main_arg0) _
  rw [V_main_arg0]
  congr 1
  funext a
  apply Fin.ext
  match a with
  | ⟨0, _⟩ => show win0_0.index t 0 * 1 + 1 * 0 = t.val / 4 % 32; rw [h0]; omega
  | ⟨1, _⟩ => show win0_0.index t 1 * 4096 + 1 * q.val = (t.val % 4 * 4096 + q.val) % 16384; rw [h1]; omega
  | ⟨2, _⟩ => show win0_0.index t 2 * 64 + 1 * k.val = k.val; rw [h2]; omega

/-- The centroid block at any point is the centroid array. -/
theorem iblk1_apply (c : Dev nD) (t : Fin cfg0.N) (k : Fin 64) (c' : Fin 32) :
    (iblk m c 1 t : Vec Ideal S64x32 .f32) (ix2 k c') = centOf (CENT m c) k c' := by
  obtain ⟨-, -, -, h0, h1, -⟩ := idx_facts t
  unfold iblk centOf
  rw [View.read_apply]
  show V m c main_arg1 _ = m (c.tc.loc main_arg1) _
  rw [V_main_arg1]
  congr 1
  funext a
  apply Fin.ext
  match a with
  | ⟨0, _⟩ => show win0_1.index t 0 * 64 + 1 * k.val = k.val; rw [h0]; omega
  | ⟨1, _⟩ => show win0_1.index t 1 * 32 + 1 * c'.val = c'.val; rw [h1]; omega

/-- Tile `s` of batch entry `b`: what its 4096 rows contribute to the aggregate at `(d, c)`, -/
def tileS (x : (⟨3, ![32, 16384, 64]⟩ : Shape).Idx → EReal) (cent : Fin 64 → Fin 32 → EReal) (b s : ℕ) (d : Fin 64) (c' : Fin 32) :
    EReal :=
  ∑ q : Fin 4096, term (rowN x b (s * 4096 + q.val)) cent d c'

/-- and to the mass of centroid `c`. -/
def tileW (x : (⟨3, ![32, 16384, 64]⟩ : Shape).Idx → EReal) (cent : Fin 64 → Fin 32 → EReal) (b s : ℕ) (c' : Fin 32) : EReal :=
  ∑ q : Fin 4096, assign (rowN x b (s * 4096 + q.val)) cent c'

/-- The rows of the block at `t` and the centroids, as the payload lemmas read them. -/
theorem rows_eq (c : Dev nD) (t : Fin cfg0.N) (q : Fin 4096) :
    (fun k : Fin 64 => (iblk m c 0 t : Vec Ideal S1x4096x64 .f32) (ix3 (0 : Fin 1) q k))
      = rowN (X m c) (t.val / 4) (t.val % 4 * 4096 + q.val) :=
  funext fun k => iblk0_apply m c t q k

theorem cents_eq (c : Dev nD) (t : Fin cfg0.N) :
    (fun (k : Fin 64) (c' : Fin 32) => (iblk m c 1 t : Vec Ideal S64x32 .f32) (ix2 k c')) = centOf (CENT m c) :=
  funext fun k => funext fun c' => iblk1_apply m c t k c'

/-- Adding the tile at `t` to an aggregate adds the tile's contribution at every `(d, c)`. -/
theorem addTileS_apply (c : Dev nD) (t : Fin cfg0.N) (acc : Vec Ideal S64x32 .f32) (d : Fin 64) (c' : Fin 32) :
    addTileS (iblk m c 0 t) (iblk m c 1 t) acc (ix2 d c')
      = acc (ix2 d c') + tileS (X m c) (centOf (CENT m c)) (t.val / 4) (t.val % 4) d c' := by
  refine (Payloads.pay1_apply (k0_pay6 (F := Ideal) (iblk m c 0 t)) (k0_pay7 (F := Ideal) (iblk m c 0 t) (iblk m c 1 t)) acc d c').trans ?_
  refine congrArg (acc (ix2 d c') + ·) ?_
  unfold tileS
  refine Finset.sum_congr rfl fun q _ => ?_
  refine (congrArg₂ (· * ·) (Payloads.pay6_apply (iblk m c 0 t) q d)
    (Payloads.pay7_apply (iblk m c 0 t) (iblk m c 1 t) q c')).trans ?_
  rw [rows_eq m c t q, cents_eq m c t]
  rfl

/-- Adding the tile at `t` to the masses adds the tile's share of every centroid. -/
theorem addTileW_apply (c : Dev nD) (t : Fin cfg0.N) (acc : Vec Ideal S1x32 .f32) (c' : Fin 32) :
    addTileW (iblk m c 0 t) (iblk m c 1 t) acc (ix2 (0 : Fin 1) c')
      = acc (ix2 (0 : Fin 1) c') + tileW (X m c) (centOf (CENT m c)) (t.val / 4) (t.val % 4) c' := by
  refine (Payloads.pay2_apply (k0_pay7 (F := Ideal) (iblk m c 0 t) (iblk m c 1 t)) acc c').trans ?_
  refine congrArg (acc (ix2 (0 : Fin 1) c') + ·) ?_
  unfold tileW
  refine Finset.sum_congr rfl fun q _ => ?_
  refine (Payloads.pay7_apply (iblk m c 0 t) (iblk m c 1 t) q c').trans ?_
  rw [rows_eq m c t q, cents_eq m c t]

/-- The invariant's two halves at a point `n`: the accumulators hold the tiles `0 … n % 4` of batch entry `n / 4`. -/
def HoldsAt (c : Dev nD) (n : ℕ) (h : n < cfg0.N) : Prop :=
  (∀ (d : Fin 64) (c' : Fin 32), (outsAt0 m c n h).2.1 (ix2 d c')
      = ∑ s ∈ Finset.range (n % 4 + 1), tileS (X m c) (centOf (CENT m c)) (n / 4) s d c')
  ∧ (∀ c' : Fin 32, (outsAt0 m c n h).2.2 (ix2 (0 : Fin 1) c')
      = ∑ s ∈ Finset.range (n % 4 + 1), tileW (X m c) (centOf (CENT m c)) (n / 4) s c')

/-- At the first tile of a batch entry the accumulators hold that one tile: zero plus the tile. -/
theorem holds_first (c : Dev nD) (t : Fin cfg0.N) (h0 : t.val % 4 = 0) : HoldsAt m c t.val t.isLt := by
  refine ⟨fun d c' => ?_, fun c' => ?_⟩
  · refine (congrFun (Steps.first_S m c t h0) (ix2 d c')).trans ?_
    refine (addTileS_apply m c t (k0_pay4 (F := Ideal)) d c').trans ?_
    rw [Payloads.pay4_apply, zero_add, h0]
    exact (Finset.sum_range_one (fun s => tileS (X m c) (centOf (CENT m c)) (t.val / 4) s d c')).symm
  · refine (congrFun (Steps.first_W m c t h0) (ix2 (0 : Fin 1) c')).trans ?_
    refine (addTileW_apply m c t (k0_pay5 (F := Ideal)) c').trans ?_
    rw [Payloads.pay5_apply, zero_add, h0]
    exact (Finset.sum_range_one (fun s => tileW (X m c) (centOf (CENT m c)) (t.val / 4) s c')).symm

/-- After every point the accumulators hold the tiles of the current batch entry seen so far: by induction on the
    point, a later tile adding itself to what the point before left. -/
theorem holds (c : Dev nD) : ∀ (n : ℕ) (h : n < cfg0.N), HoldsAt m c n h := by
  intro n
  induction n with
  | zero => intro h; exact holds_first m c ⟨0, h⟩ rfl
  | succ n ih =>
    intro h
    by_cases h0 : (n + 1) % 4 = 0
    · exact holds_first m c ⟨n + 1, h⟩ h0
    · obtain ⟨ihS, ihW⟩ := ih (Nat.lt_of_succ_lt h)
      have e1 : (n + 1) / 4 = n / 4 := by omega
      have e2 : (n + 1) % 4 = n % 4 + 1 := by omega
      refine ⟨fun d c' => ?_, fun c' => ?_⟩
      · refine (congrFun (Steps.next_S m c ⟨n + 1, h⟩ h0) (ix2 d c')).trans ?_
        refine (addTileS_apply m c ⟨n + 1, h⟩ (Steps.prevS m c ⟨n + 1, h⟩) d c').trans ?_
        show (outsAt0 m c n _).2.1 (ix2 d c') + tileS _ _ ((n + 1) / 4) ((n + 1) % 4) d c' = _
        rw [ihS d c', e1, e2, Finset.sum_range_succ _ (n % 4 + 1)]
      · refine (congrFun (Steps.next_W m c ⟨n + 1, h⟩ h0) (ix2 (0 : Fin 1) c')).trans ?_
        refine (addTileW_apply m c ⟨n + 1, h⟩ (Steps.prevW m c ⟨n + 1, h⟩) c').trans ?_
        show (outsAt0 m c n _).2.2 (ix2 (0 : Fin 1) c') + tileW _ _ ((n + 1) / 4) ((n + 1) % 4) c' = _
        rw [ihW c', e1, e2, Finset.sum_range_succ _ (n % 4 + 1)]

/-- The batch entry a grid point works on. -/
def entry (t : Fin cfg0.N) : Fin 32 :=
  ⟨t.val / 4, by have : t.val < 128 := lt_of_lt_of_eq t.isLt (show cfg0.N = 128 from N_0); omega⟩

/-- Four tiles of 4096 rows are the 16384 rows: after the fourth tile the aggregate is the sum over all rows, -/
theorem four_tiles_S (c : Dev nD) (b : Fin 32) (d : Fin 64) (c' : Fin 32) :
    ∑ s ∈ Finset.range (3 + 1), tileS (X m c) (centOf (CENT m c)) b.val s d c' = aggS (X m c) (CENT m c) b d c' := by
  unfold tileS aggS
  refine (sum_range_tiles 4 4096 16384 rfl
    (fun j => term (rowN (X m c) b.val j) (centOf (CENT m c)) d c')).trans ?_
  exact Finset.sum_congr rfl fun n _ => congrArg (fun r => term r (centOf (CENT m c)) d c') (rowN_eq (X m c) b n)

/-- and so are the masses. -/
theorem four_tiles_W (c : Dev nD) (b : Fin 32) (c' : Fin 32) :
    ∑ s ∈ Finset.range (3 + 1), tileW (X m c) (centOf (CENT m c)) b.val s c' = aggW (X m c) (CENT m c) b c' := by
  unfold tileW aggW
  refine (sum_range_tiles 4 4096 16384 rfl
    (fun j => assign (rowN (X m c) b.val j) (centOf (CENT m c)) c')).trans ?_
  exact Finset.sum_congr rfl fun n _ => congrArg (fun r => assign r (centOf (CENT m c)) c') (rowN_eq (X m c) b n)

/-- The output block stored at the fourth tile of a batch entry is that entry's normalised residual aggregate. -/
theorem out_apply (c : Dev nD) (t : Fin cfg0.N) (h1 : t.val % 4 = 3) (c' : Fin 32) (d : Fin 64) :
    (outsAt0 m c t.val t.isLt).1 (ix3 (0 : Fin 1) c' d) = vladOf (X m c) (CENT m c) (entry t) c' d := by
  have h0 : ¬t.val % 4 = 0 := by omega
  obtain ⟨hS, hW⟩ := holds m c t.val t.isLt
  have e : (outsAt0 m c t.val t.isLt).1
      = k0_pay3 (iblk m c 1 t) (outsAt0 m c t.val t.isLt).2.2 (outsAt0 m c t.val t.isLt).2.1 := by
    rw [Steps.last_out m c t h1, Steps.next_S m c t h0, Steps.next_W m c t h0]
  refine (congrFun e (ix3 (0 : Fin 1) c' d)).trans ?_
  refine (Payloads.pay3_apply (iblk m c 1 t) (outsAt0 m c t.val t.isLt).2.2 (outsAt0 m c t.val t.isLt).2.1 c' d).trans ?_
  unfold vladOf
  have eS : (fun (k : Fin 64) (c'' : Fin 32) => (outsAt0 m c t.val t.isLt).2.1 (ix2 k c''))
      = aggS (X m c) (CENT m c) (entry t) := by
    funext k c''
    refine (hS k c'').trans ?_
    rw [h1]
    exact four_tiles_S m c (entry t) k c''
  have eW : (fun c'' : Fin 32 => (outsAt0 m c t.val t.isLt).2.2 (ix2 (0 : Fin 1) c''))
      = aggW (X m c) (CENT m c) (entry t) := by
    funext c''
    refine (hW c'').trans ?_
    rw [h1]
    exact four_tiles_W m c (entry t) c''
  rw [cents_eq m c t, eS, eW]

end Cert.KernelIdeal.Chain

end
-- ==== Proof.KernelValue.lean ====
/-
  The kernel's result array.

  The output array `[32, 32, 64]` is written back once per batch entry, after that entry's fourth tile, and block
  `b` is the whole `[32, 64]` slice of entry `b`; the 32 write-backs tile the array. What is written is the
  entry's normalised residual aggregate, so the array ends as that function of the two argument arrays, and the
  reshape to `[32, 2048]` that follows the region reads position `j` of a row at cluster `j / 64`, feature `j % 64`.
-/
import proofs.«138686_j45775761440891_1_alg».proof.Proof.KernelChain
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Chain Cert.SoftAssign

variable (m : (ℓ : Loc nD τ sig) → Buf (Elt Ideal) ℓ) (ρ : Dev nD → PrngReg)

/-- The array the region leaves: every batch entry's normalised residual aggregate. -/
abbrev G3 (c : Dev nD) : Buf (Elt Ideal) ((c.tc : Thread nD τ).loc main_v0) := result3 (X m c) (CENT m c)

/-- The block stored at the fourth tile of an entry, read at `(0, c, d)`, is the array's value at `(entry, c, d)`. -/
theorem block_apply (c : Dev nD) (t : Fin cfg0.N) (h1 : t.val % 4 = 3) (y : S1x32x64.Idx) :
    (outsAt0 m c t.val t.isLt).1 y = result3 (X m c) (CENT m c) (ix3 (entry t) (y 1) (y 2)) := by
  have hy : y = ix3 (0 : Fin 1) (y 1) (y 2) := by
    funext a
    match a with
    | ⟨0, _⟩ => exact Fin.ext (by show (y 0).val = 0; have : (y 0).val < 1 := (y 0).isLt; omega)
    | ⟨1, _⟩ => rfl
    | ⟨2, _⟩ => rfl
  exact (congrArg (outsAt0 m c t.val t.isLt).1 hy).trans (out_apply m c t h1 (y 1) (y 2))

set_option maxRecDepth 200000 in
/-- What the write-back at a flushing point writes is its block of the array `G3`. -/
theorem flushed_eq (c : Dev nD) (t : Fin cfg0.N) (hf : (cfg0.win 2).flush t = true) :
    (dats m 0 c).flushed 2 t = ((cfg0.win 2).blk t).view.read (Elt Ideal) (G3 m c) := by
  have h1 : t.val % 4 = 3 := (flush0_2 t).mp hf
  obtain ⟨-, -, -, -, -, i0, i1, i2⟩ := idx_facts t
  show (cfg0.win 2).cut (grid0.coords t) ((dats m 0 c).after 2 t) = _
  rw [after0_2]
  funext y
  show (outsAt0 m c t.val t.isLt).1 y = result3 (X m c) (CENT m c) (((cfg0.win 2).blk t).view.emb y)
  refine (block_apply m c t h1 y).trans ?_
  refine congrArg (result3 (X m c) (CENT m c)) ?_
  funext a
  apply Fin.ext
  match a with
  | ⟨0, _⟩ => show t.val / 4 = win0_2.index t (0 : Fin 3) * 1 + 1 * (y 0).val; have : (y 0).val < 1 := (y 0).isLt; omega
  | ⟨1, _⟩ => show (y 1).val = win0_2.index t (1 : Fin 3) * 32 + 1 * (y 1).val; omega
  | ⟨2, _⟩ => show (y 2).val = win0_2.index t (2 : Fin 3) * 64 + 1 * (y 2).val; omega

/-- An index of the array is in point `t`'s block iff each coordinate is in the block's range on its axis. -/
theorem mem_blk (t : Fin cfg0.N) (i : S32x32x64.Idx) :
    i ∈ ((cfg0.win 2).blk t).view.set ↔ ∀ a : Fin 3, win0_2.index t a * S1x32x64.size a ≤ (i a).val ∧ (i a).val < win0_2.index t a * S1x32x64.size a + S1x32x64.size a := by
  show i ∈ ((View.whole main_v0).slice (win0_2.rect t)).set ↔ _
  rw [View.set_slice_whole, Rect.mem_set_unit]
  exact Iff.rfl

/-- Every index `(b, c, d)` is in the block written after the fourth tile of entry `b`, point `4b + 3`. -/
theorem cover (i : S32x32x64.Idx) :
    ∃ t : Fin cfg0.N, (cfg0.win 2).flush t = true ∧ i ∈ ((cfg0.win 2).blk t).view.set := by
  have hi0 : (i 0).val < 32 := (i 0).isLt
  have hi1 : (i 1).val < 32 := (i 1).isLt
  have hi2 : (i 2).val < 64 := (i 2).isLt
  have hN : grid0.N = 128 := N_0
  have hlt : 4 * (i 0).val + 3 < cfg0.N := by show _ < grid0.N; omega
  obtain ⟨-, -, -, -, -, e0, e1, e2⟩ := idx_facts ⟨4 * (i 0).val + 3, hlt⟩
  refine ⟨⟨4 * (i 0).val + 3, hlt⟩, (flush0_2 _).mpr (by show (4 * (i 0).val + 3) % 4 = 3; omega), ?_⟩
  rw [mem_blk]
  intro a
  match a with
  | ⟨0, _⟩ =>
    show win0_2.index ⟨4 * (i 0).val + 3, hlt⟩ (0 : Fin 3) * 1 ≤ (i 0).val ∧ (i 0).val < win0_2.index ⟨4 * (i 0).val + 3, hlt⟩ (0 : Fin 3) * 1 + 1
    rw [e0]; show (4 * (i 0).val + 3) / 4 * 1 ≤ (i 0).val ∧ (i 0).val < (4 * (i 0).val + 3) / 4 * 1 + 1; omega
  | ⟨1, _⟩ =>
    show win0_2.index ⟨4 * (i 0).val + 3, hlt⟩ (1 : Fin 3) * 32 ≤ (i 1).val ∧ (i 1).val < win0_2.index ⟨4 * (i 0).val + 3, hlt⟩ (1 : Fin 3) * 32 + 32
    rw [e1]; omega
  | ⟨2, _⟩ =>
    show win0_2.index ⟨4 * (i 0).val + 3, hlt⟩ (2 : Fin 3) * 64 ≤ (i 2).val ∧ (i 2).val < win0_2.index ⟨4 * (i 0).val + 3, hlt⟩ (2 : Fin 3) * 64 + 64
    rw [e2]; omega

/-- So the array ends holding `G3`. -/
theorem final (c : Dev nD) : (dats m 0 c).arrAt 2 cfg0.N = G3 m c :=
  (dats m 0 c).arrAt_eq_of_cover 2 (G3 m c) (fun t hf => flushed_eq m c t hf) cover

/-- The reshape `[32, 32, 64] → [32, 2048]` keeps the row-major position: `(b, j)` reads `(b, j / 64, j % 64)`. -/
theorem reshape_result (x : (⟨3, ![32, 16384, 64]⟩ : Shape).Idx → EReal) (cent : (⟨2, ![64, 32]⟩ : Shape).Idx → EReal) :
    shapeCast S32x2048 (result3 x cent) shapeCasts_S32x32x64_S32x2048 = result x cent := by
  funext j
  have hj : (j 1).val < 2048 := idx2_lt1 (n0 := 32) (n1 := 2048) j
  refine (shapeCast_apply (result3 x cent) shapeCasts_S32x32x64_S32x2048 j
    (ix3 (j 0) (⟨(j 1).val / 64, by omega⟩ : Fin 32) (⟨(j 1).val % 64, Nat.mod_lt _ (by decide)⟩ : Fin 64)) ?_).trans rfl
  rw [Shape.rowMajor_val_three, Shape.rowMajor_val_two]
  show ((j 0).val * 32 + (j 1).val / 64) * 64 + (j 1).val % 64 = (j 0).val * 2048 + (j 1).val
  omega

/-- The reshape's result, read out of what the line after the region leaves. -/
theorem tail_eq (c : Dev nD) :
    Pipeline.afterTail₀ cfgs (dats m) 0 (V0 m) [hostOps1] c main_v1 = result (X m c) (CENT m c) := by
  unfold Pipeline.afterTail₀
  show StableHlo.after hostOps1 _ (Proc.devRef .tc main_v1) = _
  after_results
  have e : Pipeline.withArrays (cfgs 0).spec c (V0 m c) (fun w => (dats m 0 c).arrAt w (cfgs 0).N)
      (Proc.tc.devRef main_v0) = G3 m c :=
    (Pipeline.withArrays_arr spec0 launch0.win.arr_inj c _ _ 2).trans (final m c)
  refine Eq.trans ?_ (reshape_result (X m c) (CENT m c))
  funext i
  show shapeCast S32x2048 (Pipeline.withArrays (cfgs 0).spec c (V0 m c) (fun w => (dats m 0 c).arrAt w (cfgs 0).N)
      (Proc.tc.devRef main_v0)) shapeCasts_S32x32x64_S32x2048 i = _
  rw [e]

/-- The reshape's result buffer is none of the region's arrays and is not scoped. -/
theorem v1_rest : main_v1 ∈ Pipeline.restRefs sig (cfgs 0).spec :=
  Pipeline.mem_restRefs_of main_v1 rfl (by decide)

/-- The run, read: the result at the normalised residual aggregates of the two argument arrays, flattened; the
    arguments unchanged. -/
theorem run : θ_run defs (onTc (τ := τ) (main (F := Ideal))) ⟨m, fun _ => 0, ρ⟩ fun r => ∀ c : Dev nD,
      r.2.mem ((c.tc : Thread nD τ).loc main_v1) = result (X m c) (CENT m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v1 v1_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KValue

end
-- ==== Proof.RefStages.lean ====
/-
  The reference's result, read stage by stage at an index.

  The reference works on whole arrays: every row of the input to unit length; the logits as
  `-(‖u‖² + ‖c‖² - 2⟨u, c⟩)·10`, the inner products one contraction over the 64 features; the row maximum (a fold of
  `max` from `-∞`, then once more the larger of `-∞` and it), the shifted exponentials and their row sums; the
  aggregate as one batched contraction over all 16384 rows of a batch entry and the centroid masses as one sum over
  them; the residual transposed to 32 rows of 64, each to unit length; the reshape to rows of 2048 and the last
  scaling to unit length. Each stage, read at an index built from its coordinates, is the corresponding function of
  `SoftAssign`; a host sum started from zero is the plain sum, and the sum over the 2048 positions of a row is the
  double sum over (cluster, feature) pairs.
-/
import proofs.«138686_j45775761440891_1_alg».proof.Proof.Gen.ReferenceIdeal.Run
import proofs.«138686_j45775761440891_1_alg».proof.Proof.SoftAssign
import Idealize.ShloMosaic.Lib.Pipeline.Value
import Idealize.ShloMosaic.Lib.ValueLayout

noncomputable section

open Idealize.ShloMosaic Idealize.ShloMosaic.TcCoe Idealize.SL.Sem Idealize.ShloMosaic.StableHlo Idealize.ShloMosaic.ValueIdx

namespace Cert.ReferenceIdeal.RefValue

open Cert.ReferenceIdeal Cert.ReferenceIdeal.Gen Cert.ReferenceIdeal.Value
open Cert.SoftAssign

/-! ## General readings: a sum along the last axis, and the division of a row by its length -/

/-- The host's sum over the last axis of a rank-3 array, started from zero, read at `(a, b)`: the sum over the last coordinate. -/
theorem reduceAdd3_last {A B C : ℕ} (x : (⟨3, ![A, B, C]⟩ : Shape).Idx → EReal)
    (h' : (⟨3, ![A, B, C]⟩ : Shape).ReducesTo [2] ⟨2, ![A, B]⟩) (h : (⟨3, ![A, B, C]⟩ : Shape).Reduces [2] ⟨2, ![A, B]⟩)
    (hu : 0 < (⟨0, ![]⟩ : Shape).numel) (a : Fin A) (b : Fin B) :
    Host.reduceAdd (F := Ideal) (φ := .f32) x (constant (F := Ideal) ⟨0, ![]⟩ .f32 0x00000000#32) h' hu (ix2 a b)
      = ∑ k : Fin C, x (ix3 a b k) := by
  refine (Ideal.hostReduceAdd_single h' h x _ (ix2 a b)).trans ?_
  refine (congrArg (· + _) Ideal.ofBits_zero_f32).trans ?_
  refine (zero_add _).trans ?_
  refine Finset.sum_congr rfl fun k _ => congrArg x ?_
  funext ax; apply Fin.ext
  match ax with
  | ⟨0, _⟩ => rfl
  | ⟨1, _⟩ => rfl
  | ⟨2, _⟩ => rfl

/-- An array of rows, each divided by the larger of its Euclidean length and `ε`, read at `(a, b, c)`. -/
theorem normalize3_apply {A B C : ℕ} (x : (⟨3, ![A, B, C]⟩ : Shape).Idx → EReal)
    (h' : (⟨3, ![A, B, C]⟩ : Shape).ReducesTo [2] ⟨2, ![A, B]⟩) (h : (⟨3, ![A, B, C]⟩ : Shape).Reduces [2] ⟨2, ![A, B]⟩)
    (hu : 0 < (⟨0, ![]⟩ : Shape).numel)
    (hb1 : (⟨2, ![A, B]⟩ : Shape).BroadcastsInDim ⟨3, ![A, B, 1]⟩ (![0, 1] : Fin 2 → Fin 3))
    (hb0 : (⟨0, ![]⟩ : Shape).BroadcastsInDim ⟨3, ![A, B, 1]⟩ (![] : Fin 0 → Fin 3))
    (hb2 : (⟨3, ![A, B, 1]⟩ : Shape).BroadcastsInDim ⟨3, ![A, B, C]⟩ (![0, 1, 2] : Fin 3 → Fin 3))
    (a : Fin A) (b : Fin B) (c : Fin C) :
    Host.divf (F := Ideal) (φ := .f32) x (broadcastInDim ⟨3, ![A, B, C]⟩ ![0, 1, 2] hb2
        (maximumf (Host.sqrt (broadcastInDim ⟨3, ![A, B, 1]⟩ ![0, 1] hb1
            (Host.reduceAdd (mulf x x) (constant (F := Ideal) ⟨0, ![]⟩ .f32 0x00000000#32) h' hu)))
          (broadcastInDim ⟨3, ![A, B, 1]⟩ ![] hb0 (constant (F := Ideal) ⟨0, ![]⟩ .f32 0x2B8CBCCC#32)))) (ix3 a b c)
      = unitize (fun k => x (ix3 a b k)) c := by
  have ha := a.isLt
  have hb := b.isLt
  unfold unitize
  refine congrArg (Ideal.div (x (ix3 a b c))) ?_
  refine (broadcastInDim_apply _ hb2 _ (ix3 a b c) (ix3 a b (0 : Fin 1)) ?_).trans ?_
  · intro ax
    match ax with
    | ⟨0, _⟩ => show a.val = if A = 1 then 0 else a.val; split <;> omega
    | ⟨1, _⟩ => show b.val = if B = 1 then 0 else b.val; split <;> omega
    | ⟨2, _⟩ => rfl
  refine congrArg₂ max (congrArg Ideal.sqrt ?_) rfl
  refine (broadcastInDim_apply _ hb1 _ (ix3 a b (0 : Fin 1)) (ix2 a b) ?_).trans ?_
  · intro ax
    match ax with
    | ⟨0, _⟩ => show a.val = if A = 1 then 0 else a.val; split <;> omega
    | ⟨1, _⟩ => show b.val = if B = 1 then 0 else b.val; split <;> omega
  exact reduceAdd3_last (mulf (F := Ideal) (φ := .f32) x x) h' h hu a b

/-! ## The shapes' reduction witnesses -/

theorem reduces_S32x16384x64_d2 : S32x16384x64.Reduces [2] S32x16384 := by decide
theorem reduces_S32x16384x32_d2 : S32x16384x32.Reduces [2] S32x16384 := by decide
theorem reduces_S32x16384x32_d1 : S32x16384x32.Reduces [1] S32x32 := by decide
theorem reduces_S64x32_d0 : S64x32.Reduces [0] S32 := by decide
theorem reduces_S32x32x64_d2 : S32x32x64.Reduces [2] S32x32 := by decide
theorem reduces_S32x2048_d1 : S32x2048.Reduces [1] S32 := by decide

/-! ## Stage 1: every input row scaled to unit length -/

theorem v7_apply (V0 : Valuation τ sig (Elt Ideal)) (b : Fin 32) (n : Fin 16384) (d : Fin 64) :
    res_main_v7 (F := Ideal) V0 (ix3 b n d) = unitize (rowOf (V0 (Proc.devRef .tc main_arg0)) b n) d :=
  normalize3_apply (V0 (Proc.devRef .tc main_arg0)) reducesTo_S32x16384x64_S32x16384_d2 reduces_S32x16384x64_d2 h_S_
    bcast_S32x16384_S32x16384x1_0_1 bcast_S_S32x16384x1 bcast_S32x16384x1_S32x16384x64_0_1_2 b n d

/-! ## More sums read at an index -/

/-- The host's sum over the first axis of a matrix, started from zero, read at `b`: the sum down the column. -/
theorem reduceAdd2_first {A B : ℕ} (x : (⟨2, ![A, B]⟩ : Shape).Idx → EReal)
    (h' : (⟨2, ![A, B]⟩ : Shape).ReducesTo [0] ⟨1, ![B]⟩) (h : (⟨2, ![A, B]⟩ : Shape).Reduces [0] ⟨1, ![B]⟩)
    (hu : 0 < (⟨0, ![]⟩ : Shape).numel) (b : Fin B) :
    Host.reduceAdd (F := Ideal) (φ := .f32) x (constant (F := Ideal) ⟨0, ![]⟩ .f32 0x00000000#32) h' hu (ix1 b)
      = ∑ k : Fin A, x (ix2 k b) := by
  refine (Ideal.hostReduceAdd_single h' h x _ (ix1 b)).trans ?_
  refine (congrArg (· + _) Ideal.ofBits_zero_f32).trans ?_
  refine (zero_add _).trans ?_
  refine Finset.sum_congr rfl fun k _ => congrArg x ?_
  funext ax; apply Fin.ext
  match ax with
  | ⟨0, _⟩ => rfl
  | ⟨1, _⟩ => rfl

/-- The host's sum over the second axis of a matrix, started from zero, read at `a`: the sum along the row. -/
theorem reduceAdd2_last {A B : ℕ} (x : (⟨2, ![A, B]⟩ : Shape).Idx → EReal)
    (h' : (⟨2, ![A, B]⟩ : Shape).ReducesTo [1] ⟨1, ![A]⟩) (h : (⟨2, ![A, B]⟩ : Shape).Reduces [1] ⟨1, ![A]⟩)
    (hu : 0 < (⟨0, ![]⟩ : Shape).numel) (a : Fin A) :
    Host.reduceAdd (F := Ideal) (φ := .f32) x (constant (F := Ideal) ⟨0, ![]⟩ .f32 0x00000000#32) h' hu (ix1 a)
      = ∑ k : Fin B, x (ix2 a k) := by
  refine (Ideal.hostReduceAdd_single h' h x _ (ix1 a)).trans ?_
  refine (congrArg (· + _) Ideal.ofBits_zero_f32).trans ?_
  refine (zero_add _).trans ?_
  refine Finset.sum_congr rfl fun k _ => congrArg x ?_
  funext ax; apply Fin.ext
  match ax with
  | ⟨0, _⟩ => rfl
  | ⟨1, _⟩ => rfl

/-- The host's sum over the middle axis of a rank-3 array, started from zero, read at `(a, c)`. -/
theorem reduceAdd3_mid {A B C : ℕ} (x : (⟨3, ![A, B, C]⟩ : Shape).Idx → EReal)
    (h' : (⟨3, ![A, B, C]⟩ : Shape).ReducesTo [1] ⟨2, ![A, C]⟩) (h : (⟨3, ![A, B, C]⟩ : Shape).Reduces [1] ⟨2, ![A, C]⟩)
    (hu : 0 < (⟨0, ![]⟩ : Shape).numel) (a : Fin A) (c : Fin C) :
    Host.reduceAdd (F := Ideal) (φ := .f32) x (constant (F := Ideal) ⟨0, ![]⟩ .f32 0x00000000#32) h' hu (ix2 a c)
      = ∑ k : Fin B, x (ix3 a k c) := by
  refine (Ideal.hostReduceAdd_single h' h x _ (ix2 a c)).trans ?_
  refine (congrArg (· + _) Ideal.ofBits_zero_f32).trans ?_
  refine (zero_add _).trans ?_
  refine Finset.sum_congr rfl fun k _ => congrArg x ?_
  funext ax; apply Fin.ext
  match ax with
  | ⟨0, _⟩ => rfl
  | ⟨1, _⟩ => rfl
  | ⟨2, _⟩ => rfl

/-! ## Stage 2: the logits -/

/-- The product of every row with the centroid array: the sum over the 64 features. -/
theorem dot1_apply (w : FVec Ideal S32x16384x64 .f32) (ce : FVec Ideal S64x32 .f32) (b : Fin 32) (n : Fin 16384) (c : Fin 32) :
    Host.dotGeneral dot_S32x16384x64_S64x32_S32x16384x32_2_0_01_1_n_n none w ce (ix3 b n c)
      = ∑ k : Fin 64, w (ix3 b n k) * ce (ix2 k c) := by
  show FloatOps.dotGeneral _ none _ w ce (ix3 b n c) = _
  rw [Ideal.dotGeneral_apply,
    ← Equiv.sum_comp (contrEquiv1 dot_S32x16384x64_S64x32_S32x16384x32_2_0_01_1_n_n 64 rfl rfl).symm]
  refine Finset.sum_congr rfl fun k _ => ?_
  have c3 := contrEquiv1_symm_val dot_S32x16384x64_S64x32_S32x16384x32_2_0_01_1_n_n 64 rfl rfl k
  have l3 : dot_S32x16384x64_S64x32_S32x16384x32_2_0_01_1_n_n.lhsIdx (ix3 b n c)
      ((contrEquiv1 _ 64 rfl rfl).symm k) = ix3 b n k := by
    funext ax; apply Fin.ext
    match ax with
    | ⟨0, _⟩ => simp [DotDims.lhsIdx, dot_S32x16384x64_S64x32_S32x16384x32_2_0_01_1_n_n]; rfl
    | ⟨1, _⟩ => simp [DotDims.lhsIdx, dot_S32x16384x64_S64x32_S32x16384x32_2_0_01_1_n_n]; rfl
    | ⟨2, _⟩ => simp [DotDims.lhsIdx, dot_S32x16384x64_S64x32_S32x16384x32_2_0_01_1_n_n]; exact c3
  have r3 : dot_S32x16384x64_S64x32_S32x16384x32_2_0_01_1_n_n.rhsIdx (ix3 b n c)
      ((contrEquiv1 _ 64 rfl rfl).symm k) = ix2 k c := by
    funext ax; apply Fin.ext
    match ax with
    | ⟨0, _⟩ => simp [DotDims.rhsIdx, dot_S32x16384x64_S64x32_S32x16384x32_2_0_01_1_n_n]; exact c3
    | ⟨1, _⟩ => simp [DotDims.rhsIdx, dot_S32x16384x64_S64x32_S32x16384x32_2_0_01_1_n_n]; rfl
  rw [l3, r3]

/-- The host's elementwise operations read at an index, at the exact values. -/
theorem hostNegf_apply {s : Shape} (a : FVec Ideal s .f32) (i : s.Idx) : Host.negf a i = -(a i) := rfl
theorem hostDivf_apply {s : Shape} (a b : FVec Ideal s .f32) (i : s.Idx) : Host.divf a b i = Ideal.div (a i) (b i) := rfl
theorem hostSqrt_apply {s : Shape} (a : FVec Ideal s .f32) (i : s.Idx) : Host.sqrt a i = Ideal.sqrt (a i) := rfl
theorem hostExp_apply {s : Shape} (a : FVec Ideal s .f32) (i : s.Idx) : Host.exp a i = Ideal.exp (a i) := rfl

/-- Minus ten times the expanded squared distance of row `(b, n)` of `w` to centroid `c`. -/
theorem logits_apply (w : FVec Ideal S32x16384x64 .f32) (ce : FVec Ideal S64x32 .f32) (b : Fin 32) (n : Fin 16384) (c : Fin 32) :
    mulf (F := Ideal) (Host.negf (subf (addf
        (broadcastInDim S32x16384x32 ![0, 1, 2] bcast_S32x16384x1_S32x16384x32_0_1_2 (broadcastInDim S32x16384x1 ![0, 1] bcast_S32x16384_S32x16384x1_0_1 (Host.reduceAdd (mulf w w) (constant S_ .f32 0x00000000#32) reducesTo_S32x16384x64_S32x16384_d2 h_S_)))
        (broadcastInDim S32x16384x32 ![0, 1, 2] bcast_S1x1x32_S32x16384x32_0_1_2 (broadcastInDim S1x1x32 ![2] bcast_S32_S1x1x32_2 (Host.reduceAdd (mulf ce ce) (constant S_ .f32 0x00000000#32) reducesTo_S64x32_S32_d0 h_S_))))
        (mulf (broadcastInDim S32x16384x32 ![] bcast_S_S32x16384x32 (constant S_ .f32 0x40000000#32)) (Host.dotGeneral dot_S32x16384x64_S64x32_S32x16384x32_2_0_01_1_n_n none w ce))))
      (broadcastInDim S32x16384x32 ![] bcast_S_S32x16384x32 (constant S_ .f32 0x41200000#32)) (ix3 b n c)
    = logit (fun k => w (ix3 b n k)) (centOf ce) c := by
  unfold logit
  refine (mulf_apply _ _ _).trans ?_
  refine congrArg₂ (· * ·) ?_ rfl
  refine (hostNegf_apply _ _).trans (congrArg Neg.neg ?_)
  refine (subf_apply _ _ _).trans (congrArg₂ (· - ·) ?_ ?_)
  · refine (addf_apply _ _ _).trans (congrArg₂ (· + ·) ?_ ?_)
    · refine (broadcastInDim_apply _ bcast_S32x16384x1_S32x16384x32_0_1_2 _ (ix3 b n c) (ix3 b n (0 : Fin 1)) ?_).trans ?_
      · intro ax
        match ax with
        | ⟨0, _⟩ => rfl
        | ⟨1, _⟩ => rfl
        | ⟨2, _⟩ => rfl
      refine (broadcastInDim_apply _ bcast_S32x16384_S32x16384x1_0_1 _ (ix3 b n (0 : Fin 1)) (ix2 b n) ?_).trans ?_
      · intro ax
        match ax with
        | ⟨0, _⟩ => rfl
        | ⟨1, _⟩ => rfl
      exact reduceAdd3_last (mulf (F := Ideal) (φ := .f32) w w) _ reduces_S32x16384x64_d2 _ b n
    · refine (broadcastInDim_apply _ bcast_S1x1x32_S32x16384x32_0_1_2 _ (ix3 b n c) (ix3 (0 : Fin 1) (0 : Fin 1) c) ?_).trans ?_
      · intro ax
        match ax with
        | ⟨0, _⟩ => rfl
        | ⟨1, _⟩ => rfl
        | ⟨2, _⟩ => rfl
      refine (broadcastInDim_apply _ bcast_S32_S1x1x32_2 _ (ix3 (0 : Fin 1) (0 : Fin 1) c) (ix1 c) ?_).trans ?_
      · intro ax
        match ax with
        | ⟨0, _⟩ => rfl
      exact reduceAdd2_first (mulf (F := Ideal) (φ := .f32) ce ce) _ reduces_S64x32_d0 _ c
  · refine (mulf_apply _ _ _).trans (congrArg₂ (· * ·) rfl ?_)
    exact dot1_apply w ce b n c

theorem v23_apply (V0 : Valuation τ sig (Elt Ideal)) (b : Fin 32) (n : Fin 16384) (c : Fin 32) :
    res_main_v23 (F := Ideal) V0 (ix3 b n c)
      = logit (unitize (rowOf (V0 (Proc.devRef .tc main_arg0)) b n)) (centOf (V0 (Proc.devRef .tc main_arg1))) c :=
  (logits_apply (res_main_v7 V0) (V0 (Proc.devRef .tc main_arg1)) b n c).trans
    (congrArg (fun u => logit u (centOf (V0 (Proc.devRef .tc main_arg1))) c) (funext fun k => v7_apply V0 b n k))

/-! ## Stage 3: the row maximum and the shifted exponentials -/

/-- The host's maximum over the last axis, started from `-∞`, read at `(b, n)`: the fold of `max` over the 32 entries. -/
theorem rowMax_read (L : FVec Ideal S32x16384x32 .f32) (b : Fin 32) (n : Fin 16384) :
    Host.reduce FloatOps.maximumf L (constant (F := Ideal) S_ .f32 0xFF800000#32) reducesTo_S32x16384x32_S32x16384_d2 h_S_ (ix2 b n)
      = rowMax (fun c' => L (ix3 b n c')) := by
  refine (Host.reduce_eq_fold_single FloatOps.maximumf L _ reducesTo_S32x16384x32_S32x16384_d2
    reduces_S32x16384x32_d2 h_S_ (ix2 b n)).trans ?_
  unfold rowMax
  show Finset.fold max negInf (L ∘ reduces_S32x16384x32_d2.lift (ix2 b n)) Finset.univ
    = Finset.fold max negInf (fun c' : Fin 32 => L (ix3 b n c')) Finset.univ
  refine congrArg (fun f => Finset.fold max negInf f Finset.univ) (funext fun k => congrArg L ?_)
  funext ax; apply Fin.ext
  match ax with
  | ⟨0, _⟩ => rfl
  | ⟨1, _⟩ => rfl
  | ⟨2, _⟩ => rfl

/-- Each entry minus its row's maximum, exponentiated. -/
theorem shiftExp_apply (L : FVec Ideal S32x16384x32 .f32) (b : Fin 32) (n : Fin 16384) (c : Fin 32) :
    Host.exp (subf L (broadcastInDim S32x16384x32 ![0, 1, 2] bcast_S32x16384x1_S32x16384x32_0_1_2 (broadcastInDim S32x16384x1 ![0, 1] bcast_S32x16384_S32x16384x1_0_1 (maximumf (broadcastInDim S32x16384 ![] bcast_S_S32x16384 (constant (F := Ideal) S_ .f32 0xFF800000#32)) (Host.reduce FloatOps.maximumf L (constant (F := Ideal) S_ .f32 0xFF800000#32) reducesTo_S32x16384x32_S32x16384_d2 h_S_))))) (ix3 b n c)
      = Ideal.exp (L (ix3 b n c) - rowMax (fun c' => L (ix3 b n c'))) := by
  refine (hostExp_apply _ _).trans (congrArg Ideal.exp ?_)
  refine (subf_apply _ _ _).trans (congrArg (L (ix3 b n c) - ·) ?_)
  refine (broadcastInDim_apply _ bcast_S32x16384x1_S32x16384x32_0_1_2 _ (ix3 b n c) (ix3 b n (0 : Fin 1)) ?_).trans ?_
  · intro ax
    match ax with
    | ⟨0, _⟩ => rfl
    | ⟨1, _⟩ => rfl
    | ⟨2, _⟩ => rfl
  refine (broadcastInDim_apply _ bcast_S32x16384_S32x16384x1_0_1 _ (ix3 b n (0 : Fin 1)) (ix2 b n) ?_).trans ?_
  · intro ax
    match ax with
    | ⟨0, _⟩ => rfl
    | ⟨1, _⟩ => rfl
  refine (maximumf_apply _ _ _).trans ?_
  exact (congrArg (max negInf) (rowMax_read L b n)).trans (max_start_rowMax _)

theorem v30_apply (V0 : Valuation τ sig (Elt Ideal)) (b : Fin 32) (n : Fin 16384) (c : Fin 32) :
    res_main_v30 (F := Ideal) V0 (ix3 b n c)
      = Ideal.exp (logit (unitize (rowOf (V0 (Proc.devRef .tc main_arg0)) b n)) (centOf (V0 (Proc.devRef .tc main_arg1))) c
          - rowMax (logit (unitize (rowOf (V0 (Proc.devRef .tc main_arg0)) b n)) (centOf (V0 (Proc.devRef .tc main_arg1))))) := by
  refine (shiftExp_apply (res_main_v23 V0) b n c).trans ?_
  have hf : (fun c' => res_main_v23 (F := Ideal) V0 (ix3 b n c'))
      = logit (unitize (rowOf (V0 (Proc.devRef .tc main_arg0)) b n)) (centOf (V0 (Proc.devRef .tc main_arg1))) :=
    funext fun c' => v23_apply V0 b n c'
  rw [hf, v23_apply]

/-! ## Stage 4: the soft assignment -/

/-- Each entry divided by its row's sum. -/
theorem rowDiv_apply (E : FVec Ideal S32x16384x32 .f32) (b : Fin 32) (n : Fin 16384) (c : Fin 32) :
    Host.divf E (broadcastInDim S32x16384x32 ![0, 1, 2] bcast_S32x16384x1_S32x16384x32_0_1_2 (broadcastInDim S32x16384x1 ![0, 1] bcast_S32x16384_S32x16384x1_0_1 (Host.reduceAdd E (constant (F := Ideal) S_ .f32 0x00000000#32) reducesTo_S32x16384x32_S32x16384_d2 h_S_))) (ix3 b n c)
      = Ideal.div (E (ix3 b n c)) (∑ k : Fin 32, E (ix3 b n k)) := by
  refine (hostDivf_apply _ _ _).trans (congrArg (Ideal.div (E (ix3 b n c))) ?_)
  refine (broadcastInDim_apply _ bcast_S32x16384x1_S32x16384x32_0_1_2 _ (ix3 b n c) (ix3 b n (0 : Fin 1)) ?_).trans ?_
  · intro ax
    match ax with
    | ⟨0, _⟩ => rfl
    | ⟨1, _⟩ => rfl
    | ⟨2, _⟩ => rfl
  refine (broadcastInDim_apply _ bcast_S32x16384_S32x16384x1_0_1 _ (ix3 b n (0 : Fin 1)) (ix2 b n) ?_).trans ?_
  · intro ax
    match ax with
    | ⟨0, _⟩ => rfl
    | ⟨1, _⟩ => rfl
  exact reduceAdd3_last E _ reduces_S32x16384x32_d2 _ b n

theorem v34_apply (V0 : Valuation τ sig (Elt Ideal)) (b : Fin 32) (n : Fin 16384) (c : Fin 32) :
    res_main_v34 (F := Ideal) V0 (ix3 b n c)
      = assign (rowOf (V0 (Proc.devRef .tc main_arg0)) b n) (centOf (V0 (Proc.devRef .tc main_arg1))) c := by
  refine (rowDiv_apply (res_main_v30 V0) b n c).trans ?_
  unfold assign softmax
  rw [v30_apply]
  exact congrArg (Ideal.div _) (Finset.sum_congr rfl fun k _ => v30_apply V0 b n k)

/-! ## Stage 5: the aggregate, the mass of each centroid, and the residual -/

/-- The batched product over the 16384 rows of one batch entry: entry `(b, d, c)` sums the products of column `d` of the rows with
    column `c` of the assignments. -/
theorem dot2_apply (w : FVec Ideal S32x16384x64 .f32) (p : FVec Ideal S32x16384x32 .f32) (b : Fin 32) (d : Fin 64) (c : Fin 32) :
    Host.dotGeneral dot_S32x16384x64_S32x16384x32_S32x64x32_1_1_2_2_0_0 none w p (ix3 b d c)
      = ∑ n : Fin 16384, w (ix3 b n d) * p (ix3 b n c) := by
  show FloatOps.dotGeneral _ none _ w p (ix3 b d c) = _
  rw [Ideal.dotGeneral_apply,
    ← Equiv.sum_comp (contrEquiv1 dot_S32x16384x64_S32x16384x32_S32x64x32_1_1_2_2_0_0 16384 rfl rfl).symm]
  refine Finset.sum_congr rfl fun k _ => ?_
  have c3 := contrEquiv1_symm_val dot_S32x16384x64_S32x16384x32_S32x64x32_1_1_2_2_0_0 16384 rfl rfl k
  have l3 : dot_S32x16384x64_S32x16384x32_S32x64x32_1_1_2_2_0_0.lhsIdx (ix3 b d c)
      ((contrEquiv1 _ 16384 rfl rfl).symm k) = ix3 b k d := by
    funext ax; apply Fin.ext
    match ax with
    | ⟨0, _⟩ => simp [DotDims.lhsIdx, dot_S32x16384x64_S32x16384x32_S32x64x32_1_1_2_2_0_0]; rfl
    | ⟨1, _⟩ => simp [DotDims.lhsIdx, dot_S32x16384x64_S32x16384x32_S32x64x32_1_1_2_2_0_0]; exact c3
    | ⟨2, _⟩ => simp [DotDims.lhsIdx, dot_S32x16384x64_S32x16384x32_S32x64x32_1_1_2_2_0_0]; rfl
  have r3 : dot_S32x16384x64_S32x16384x32_S32x64x32_1_1_2_2_0_0.rhsIdx (ix3 b d c)
      ((contrEquiv1 _ 16384 rfl rfl).symm k) = ix3 b k c := by
    funext ax; apply Fin.ext
    match ax with
    | ⟨0, _⟩ => simp [DotDims.rhsIdx, dot_S32x16384x64_S32x16384x32_S32x64x32_1_1_2_2_0_0]; rfl
    | ⟨1, _⟩ => simp [DotDims.rhsIdx, dot_S32x16384x64_S32x16384x32_S32x64x32_1_1_2_2_0_0]; exact c3
    | ⟨2, _⟩ => simp [DotDims.rhsIdx, dot_S32x16384x64_S32x16384x32_S32x64x32_1_1_2_2_0_0]; rfl
  rw [l3, r3]

/-- The aggregate minus the centroids weighted by their mass, transposed to 32 rows of 64, read at `(b, c, d)`. -/
theorem resid_read (w : FVec Ideal S32x16384x64 .f32) (p : FVec Ideal S32x16384x32 .f32) (ce : FVec Ideal S64x32 .f32)
    (b : Fin 32) (c : Fin 32) (d : Fin 64) :
    transpose S32x32x64 [0, 2, 1] (subf (Host.dotGeneral dot_S32x16384x64_S32x16384x32_S32x64x32_1_1_2_2_0_0 none w p) (mulf (broadcastInDim S32x64x32 ![0, 1, 2] bcast_S1x64x32_S32x64x32_0_1_2 (broadcastInDim S1x64x32 ![1, 2] bcast_S64x32_S1x64x32_1_2 ce)) (broadcastInDim S32x64x32 ![0, 1, 2] bcast_S32x1x32_S32x64x32_0_1_2 (broadcastInDim S32x1x32 ![0, 2] bcast_S32x32_S32x1x32_0_2 (Host.reduceAdd p (constant (F := Ideal) S_ .f32 0x00000000#32) reducesTo_S32x16384x32_S32x32_d1 h_S_))))) transposes_S32x64x32_S32x32x64_0_2_1 (ix3 b c d)
      = (∑ n : Fin 16384, w (ix3 b n d) * p (ix3 b n c)) - ce (ix2 d c) * ∑ n : Fin 16384, p (ix3 b n c) := by
  refine (transpose_ix3_021_apply _ transposes_S32x64x32_S32x32x64_0_2_1 b c d).trans ?_
  refine (subf_apply _ _ _).trans (congrArg₂ (· - ·) (dot2_apply w p b d c) ?_)
  refine (mulf_apply _ _ _).trans (congrArg₂ (· * ·) ?_ ?_)
  · refine (broadcastInDim_apply _ bcast_S1x64x32_S32x64x32_0_1_2 _ (ix3 b d c) (ix3 (0 : Fin 1) d c) ?_).trans ?_
    · intro ax
      match ax with
      | ⟨0, _⟩ => rfl
      | ⟨1, _⟩ => rfl
      | ⟨2, _⟩ => rfl
    refine broadcastInDim_apply _ bcast_S64x32_S1x64x32_1_2 _ (ix3 (0 : Fin 1) d c) (ix2 d c) ?_
    intro ax
    match ax with
    | ⟨0, _⟩ => rfl
    | ⟨1, _⟩ => rfl
  · refine (broadcastInDim_apply _ bcast_S32x1x32_S32x64x32_0_1_2 _ (ix3 b d c) (ix3 b (0 : Fin 1) c) ?_).trans ?_
    · intro ax
      match ax with
      | ⟨0, _⟩ => rfl
      | ⟨1, _⟩ => rfl
      | ⟨2, _⟩ => rfl
    refine (broadcastInDim_apply _ bcast_S32x32_S32x1x32_0_2 _ (ix3 b (0 : Fin 1) c) (ix2 b c) ?_).trans ?_
    · intro ax
      match ax with
      | ⟨0, _⟩ => rfl
      | ⟨1, _⟩ => rfl
    exact reduceAdd3_mid p _ reduces_S32x16384x32_d1 _ b c

theorem v43_apply (V0 : Valuation τ sig (Elt Ideal)) (b : Fin 32) (c : Fin 32) (d : Fin 64) :
    res_main_v43 (F := Ideal) V0 (ix3 b c d)
      = resid (centOf (V0 (Proc.devRef .tc main_arg1)))
          (aggS (V0 (Proc.devRef .tc main_arg0)) (V0 (Proc.devRef .tc main_arg1)) b)
          (aggW (V0 (Proc.devRef .tc main_arg0)) (V0 (Proc.devRef .tc main_arg1)) b) c d := by
  refine (resid_read (res_main_v7 V0) (res_main_v34 V0) (V0 (Proc.devRef .tc main_arg1)) b c d).trans ?_
  unfold resid aggS aggW term
  refine congrArg₂ (· - ·) (Finset.sum_congr rfl fun n _ => ?_)
    (congrArg₂ (· * ·) rfl (Finset.sum_congr rfl fun n _ => v34_apply V0 b n c))
  rw [v7_apply, v34_apply]

/-! ## Stage 6: every residual row to unit length, then read as one row of 2048 -/

/-- Position `j` of a row of 2048 is entry `j % 64` of tile `j / 64`. -/
abbrev tileOf (j : Fin 2048) : Fin 32 := ⟨j.val / 64, by have := j.isLt; omega⟩
abbrev posOf (j : Fin 2048) : Fin 64 := ⟨j.val % 64, Nat.mod_lt _ (by decide)⟩

theorem v52_apply (V0 : Valuation τ sig (Elt Ideal)) (b : Fin 32) (j : Fin 2048) :
    res_main_v52 (F := Ideal) V0 (ix2 b j)
      = unitize (resid (centOf (V0 (Proc.devRef .tc main_arg1)))
          (aggS (V0 (Proc.devRef .tc main_arg0)) (V0 (Proc.devRef .tc main_arg1)) b)
          (aggW (V0 (Proc.devRef .tc main_arg0)) (V0 (Proc.devRef .tc main_arg1)) b) (tileOf j)) (posOf j) := by
  refine (shapeCast_apply _ shapeCasts_S32x32x64_S32x2048 (ix2 b j) (ix3 b (tileOf j) (posOf j)) ?_).trans ?_
  · rw [Shape.rowMajor_val_three, Shape.rowMajor_val_two]
    show (b.val * 32 + j.val / 64) * 64 + j.val % 64 = b.val * 2048 + j.val
    omega
  refine (normalize3_apply (res_main_v43 V0) reducesTo_S32x32x64_S32x32_d2 reduces_S32x32x64_d2 h_S_
    bcast_S32x32_S32x32x1_0_1 bcast_S_S32x32x1 bcast_S32x32x1_S32x32x64_0_1_2 b (tileOf j) (posOf j)).trans ?_
  exact congrArg (fun f => unitize f (posOf j)) (funext fun k => v43_apply V0 b (tileOf j) k)

/-! ## Stage 7: the whole row of 2048 to unit length -/

/-- A matrix of rows, each divided by the larger of its Euclidean length and `ε`, read at `(a, b)`. -/
theorem normalize2_apply {A B : ℕ} (x : (⟨2, ![A, B]⟩ : Shape).Idx → EReal)
    (h' : (⟨2, ![A, B]⟩ : Shape).ReducesTo [1] ⟨1, ![A]⟩) (h : (⟨2, ![A, B]⟩ : Shape).Reduces [1] ⟨1, ![A]⟩)
    (hu : 0 < (⟨0, ![]⟩ : Shape).numel)
    (hb1 : (⟨1, ![A]⟩ : Shape).BroadcastsInDim ⟨2, ![A, 1]⟩ (![0] : Fin 1 → Fin 2))
    (hb0 : (⟨0, ![]⟩ : Shape).BroadcastsInDim ⟨2, ![A, 1]⟩ (![] : Fin 0 → Fin 2))
    (hb2 : (⟨2, ![A, 1]⟩ : Shape).BroadcastsInDim ⟨2, ![A, B]⟩ (![0, 1] : Fin 2 → Fin 2))
    (a : Fin A) (b : Fin B) :
    Host.divf (F := Ideal) (φ := .f32) x (broadcastInDim ⟨2, ![A, B]⟩ ![0, 1] hb2
        (maximumf (Host.sqrt (broadcastInDim ⟨2, ![A, 1]⟩ ![0] hb1
            (Host.reduceAdd (mulf x x) (constant (F := Ideal) ⟨0, ![]⟩ .f32 0x00000000#32) h' hu)))
          (broadcastInDim ⟨2, ![A, 1]⟩ ![] hb0 (constant (F := Ideal) ⟨0, ![]⟩ .f32 0x2B8CBCCC#32)))) (ix2 a b)
      = unitize (fun k => x (ix2 a k)) b := by
  have ha := a.isLt
  unfold unitize
  refine congrArg (Ideal.div (x (ix2 a b))) ?_
  refine (broadcastInDim_apply _ hb2 _ (ix2 a b) (ix2 a (0 : Fin 1)) ?_).trans ?_
  · intro ax
    match ax with
    | ⟨0, _⟩ => show a.val = if A = 1 then 0 else a.val; split <;> omega
    | ⟨1, _⟩ => rfl
  refine congrArg₂ max (congrArg Ideal.sqrt ?_) rfl
  refine (broadcastInDim_apply _ hb1 _ (ix2 a (0 : Fin 1)) (ix1 a) ?_).trans ?_
  · intro ax
    match ax with
    | ⟨0, _⟩ => show a.val = if A = 1 then 0 else a.val; split <;> omega
  exact reduceAdd2_last (mulf (F := Ideal) (φ := .f32) x x) h' h hu a

/-- A sum over the 2048 positions of a row, taken tile by tile. -/
theorem sum_tiles_fin {M : Type*} [AddCommMonoid M] (G : Fin 32 → Fin 64 → M) :
    ∑ k : Fin 2048, G (tileOf k) (posOf k) = ∑ c : Fin 32, ∑ d : Fin 64, G c d := by
  let f : ℕ → M := fun k => if h : k < 2048 then G ⟨k / 64, by omega⟩ ⟨k % 64, Nat.mod_lt _ (by decide)⟩ else 0
  have h1 : ∀ k : Fin 2048, G (tileOf k) (posOf k) = f k.val := fun k => by
    show _ = dite _ _ _
    rw [dif_pos k.isLt]
  have h2 : ∀ (c : Fin 32) (d : Fin 64), f (c.val * 64 + d.val) = G c d := fun c d => by
    have hc := c.isLt
    have hd := d.isLt
    show dite _ _ _ = _
    rw [dif_pos (by omega)]
    exact congrArg₂ G (Fin.ext (by show (c.val * 64 + d.val) / 64 = c.val; omega))
      (Fin.ext (by show (c.val * 64 + d.val) % 64 = d.val; omega))
  rw [Finset.sum_congr rfl fun k _ => h1 k, sum_tiles 32 64 2048 rfl f]
  exact Finset.sum_congr rfl fun c _ => Finset.sum_congr rfl fun d _ => h2 c d

/-- 32 rows of 64 read as one row of 2048 and scaled to unit length: each entry over the length of all 2048. -/
theorem unitize_tiles (v : Fin 32 → Fin 64 → EReal) (j : Fin 2048) :
    unitize (fun k : Fin 2048 => v (tileOf k) (posOf k)) j = unitizeAll v (tileOf j) (posOf j) := by
  unfold unitize unitizeAll
  exact congrArg (fun s => Ideal.div (v (tileOf j) (posOf j)) (max (Ideal.sqrt s) eps))
    (sum_tiles_fin fun c d => v c d * v c d)

/-! ## The reference's value -/

/-- The result array at position `j` of batch entry `b` is the normalised residual aggregate at tile `j / 64`, entry `j % 64`. -/
theorem result_at (x : (⟨3, ![32, 16384, 64]⟩ : Shape).Idx → EReal) (cent : (⟨2, ![64, 32]⟩ : Shape).Idx → EReal)
    (b : Fin 32) (j : Fin 2048) : Cert.SoftAssign.result x cent (ix2 b j) = vladOf x cent b (tileOf j) (posOf j) := rfl

theorem result_eq (V0 : Valuation τ sig (Elt Ideal)) :
    Host.divf (F := Ideal) (res_main_v52 V0) (broadcastInDim S32x2048 ![0, 1] bcast_S32x1_S32x2048_0_1 (maximumf (Host.sqrt (broadcastInDim S32x1 ![0] bcast_S32_S32x1_0 (Host.reduceAdd (mulf (res_main_v52 V0) (res_main_v52 V0)) (constant S_ .f32 0x00000000#32) reducesTo_S32x2048_S32_d1 h_S_))) (broadcastInDim S32x1 ![] bcast_S_S32x1 (constant S_ .f32 0x2B8CBCCC#32))))
      = Cert.SoftAssign.result (V0 (Proc.devRef .tc main_arg0)) (V0 (Proc.devRef .tc main_arg1)) := by
  funext i
  obtain ⟨b, j, rfl⟩ : ∃ (b : Fin 32) (j : Fin 2048), i = ix2 b j := ⟨i 0, i 1, eq_ix2 i⟩
  refine (normalize2_apply (res_main_v52 V0) reducesTo_S32x2048_S32_d1 reduces_S32x2048_d1 h_S_
    bcast_S32_S32x1_0 bcast_S_S32x1 bcast_S32x1_S32x2048_0_1 b j).trans ?_
  refine (congrArg (fun f => unitize f j) (funext fun k => v52_apply V0 b k)).trans ?_
  refine Eq.trans ?_ (result_at _ _ b j).symm
  exact unitize_tiles (fun c' => unitize (resid (centOf (V0 (Proc.devRef .tc main_arg1)))
    (aggS (V0 (Proc.devRef .tc main_arg0)) (V0 (Proc.devRef .tc main_arg1)) b)
    (aggW (V0 (Proc.devRef .tc main_arg0)) (V0 (Proc.devRef .tc main_arg1)) b) c')) j

end Cert.ReferenceIdeal.RefValue

end
-- ==== Proof.lean ====
/-
  A residual aggregate over soft assignments, accumulated tile by tile, against the same aggregate taken at once.

  Input: `x : [32, 16384, 64]`, 32 batch entries of 16384 rows of 64 features, and 32 centroids `cent : [64, 32]`.
  Every row is scaled to unit length (its length floored at `ε`); its 32 logits are minus ten times its squared
  distances to the centroids, written `‖u‖² + ‖c‖² - 2⟨u, c⟩`; its soft assignment is their softmax, taken after
  subtracting the largest. Per batch entry, `S d c = Σₙ uₙ d · aₙ c` and `W c = Σₙ aₙ c`; the residual
  `S d c - cent d c · W c`, read as 32 rows of 64, is scaled to unit length row by row and then as one vector of
  2048 numbers. The result is `[32, 2048]`.

  The kernel walks a grid of 32 × 4 points: four tiles of 4096 rows per batch entry. It keeps `S` and `W` in two
  scratch buffers, reset to zero at an entry's first tile and added to at every tile, and at the fourth tile it
  normalises the residual and stores the entry's `[32, 64]` block; the host reshapes `[32, 32, 64]` to `[32, 2048]`.
  The reference computes every stage on whole arrays: one contraction over all 16384 rows, the last normalisation
  over the flattened 2048 numbers.

  On the extended reals the two agree stage by stage. Three things differ in spelling only: the kernel writes
  the negation as `0 - x`; the reference takes the larger of `-∞` and the row maximum once more, which changes
  nothing because the running maximum already starts there; and the sums are grouped differently — the rows in four
  tiles against all at once, the last sum of squares over (cluster, feature) pairs against the flattened index.
  A finite sum may be taken in any grouping in any commutative additive monoid, so no finiteness of the inputs is
  used and the precondition is never opened. The ideal pass rewrote nothing, so there is nothing to preserve.

  `SoftAssign` states the mathematics; `KernelPieces`, `KernelSteps`, `KernelPayloads`, `KernelChain` and
  `KernelValue` read the kernel's result array off its frame run; `RefStages` reads the reference's run.
-/
import proofs.«138686_j45775761440891_1_alg».proof.Defs
import proofs.«138686_j45775761440891_1_alg».proof.Proof.Gen.Kernel
import proofs.«138686_j45775761440891_1_alg».proof.Proof.Gen.Kernel.Skeleton
import proofs.«138686_j45775761440891_1_alg».proof.Proof.Gen.Kernel.Launch
import proofs.«138686_j45775761440891_1_alg».proof.Proof.Gen.Kernel.Points
import proofs.«138686_j45775761440891_1_alg».proof.Proof.Gen.Kernel.Frame
import proofs.«138686_j45775761440891_1_alg».proof.Proof.Gen.KernelIdeal
import proofs.«138686_j45775761440891_1_alg».proof.Proof.Gen.KernelIdeal.Skeleton
import proofs.«138686_j45775761440891_1_alg».proof.Proof.Gen.KernelIdeal.Launch
import proofs.«138686_j45775761440891_1_alg».proof.Proof.Gen.KernelIdeal.Points
import proofs.«138686_j45775761440891_1_alg».proof.Proof.Gen.KernelIdeal.Frame
import proofs.«138686_j45775761440891_1_alg».proof.Proof.Gen.ReferenceIdeal
import proofs.«138686_j45775761440891_1_alg».proof.Proof.Gen.Pre_finite_inputs
import proofs.«138686_j45775761440891_1_alg».proof.Proof.Gen.ReferenceIdeal.Run
import proofs.«138686_j45775761440891_1_alg».proof.Proof.KernelValue
import proofs.«138686_j45775761440891_1_alg».proof.Proof.RefStages
import Idealize.ShloMosaic.Adequacy
import Idealize.ShloMosaic.Init

noncomputable section

namespace Cert.Proof

open Idealize.ShloMosaic Idealize.ShloMosaic.TcCoe Idealize.SL.Sem

/-- The word-level kernel runs to the end and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the flattened normalised residual aggregates of the same two arrays. -/
theorem algebraic : Cert.algebraic_KernelIdeal_ReferenceIdeal := by
  intro m ρ m' ρ' _ hagree
  refine ⟨fun c => Cert.SoftAssign.result (Cert.KernelIdeal.Chain.X m c) (Cert.KernelIdeal.Chain.CENT m c),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.RefValue.result_eq (StableHlo.launchContents m' c)).trans ?_
  show Cert.SoftAssign.result (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1)) = _
  rw [(hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
